-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S100000x128 .f32) (main_arg1 : IVec S2x1600000 32) (main_arg2 : FVec F S256x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  main_v8
-- ==== Kernel.lean ====
abbrev S100000x128 : Shape := ⟨2, ![100000, 128]⟩
abbrev S2x1600000 : Shape := ⟨2, ![2, 1600000]⟩
abbrev S256x128 : Shape := ⟨2, ![256, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 46
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S256x128, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S256x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S256x128 : Shape := ⟨2, ![256, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x256 : Shape := ⟨2, ![100000, 256]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S256x128, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x256, .f32⟩
  | .hbm, ⟨64, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x256_d1 : Shape.Concatenates [S100000x128, S100000x128] S100000x256 1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.LibGatherRows.lean ====
/-
  `x[idx]` along axis 0, with one start index per result row, read at an index.

  jnp's `x[idx]` for an integer vector `idx : [R]` lowers to a gather whose start indices are the column `[R, 1]`:
  of a matrix `x : [N, C]` it takes whole rows (offset axis 1, axis 0 collapsed, slice sizes `[1, C]`), of a vector
  `x : [N]` single entries (no offset axis, slice size `[1]`). Either way result row `r` comes from the operand's row
  `srcRow idx r`: the start index `idx[r, 0]` read as a signed integer and clamped into `[0, N − 1]`, as a gather clamps
  every start index. Both forms use THE SAME source row, which is what lets a row statistic be taken before or after
  the gather.
-/
import Idealize.ShloMosaic.Lib.ValueIdx
import Idealize.ShloMosaic.PureOps.ShapeOps

namespace Idealize.ShloMosaic.GatherRows

open Idealize.ShloMosaic Idealize.ShloMosaic.ValueIdx

variable {α : Type}

/-- The operand row that result row `r` reads: the start index `idx[r, 0]`, signed, clamped into `[0, N − 1]`. -/
def srcRow {N R w : Nat} (hN : 0 < N) (idx : IVec ⟨2, ![R, 1]⟩ w) (r : Fin R) : Fin N :=
  ⟨min (idx (ix2 r (0 : Fin 1))).toInt.toNat (N - 1), by omega⟩

/-- The dimension numbers of a gather of whole rows of an `[N, C]` operand at start indices `[R, 1]`. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The dimension numbers of a gather of single entries of an `[N]` operand at start indices `[R, 1]`. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- ROWS, READ AT `(r, k)`: the operand's entry `(srcRow idx r, k)`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k) = x (ix2 (srcRow hN idx r) k) := by
  unfold Host.gather
  congr 1
  funext a
  refine Fin.ext ?_
  have hsi : (rowsDims N C R wf).siIdx (ix2 r k) ⟨List.idxOf (0 : Fin 2) (rowsDims N C R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  match a with
  | ⟨0, _⟩ =>
    show (rowsDims N C R wf).start (ix2 r k) idx 0 + (rowsDims N C R wf).batchCoord (ix2 r k) 0
      + (rowsDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl), hsi]
    rfl
  | ⟨1, _⟩ =>
    show (rowsDims N C R wf).start (ix2 r k) idx 1 + (rowsDims N C R wf).batchCoord (ix2 r k) 1
      + (rowsDims N C R wf).offCoord (ix2 r k) 1 = k.val
    rw [GatherDims.batchCoord_eq_zero _ _ _ List.not_mem_nil]
    unfold GatherDims.start
    rw [dif_neg (show (1 : Fin 2) ∉ (rowsDims N C R wf).startIndexMap from (by decide : (1 : Fin 2) ∉ ([0] : List (Fin 2))))]
    simp only [Nat.add_zero, Nat.zero_add]
    rfl

/-- ENTRIES, READ AT `r`: the operand's entry `srcRow idx r`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entriesDims N R wf) x idx (ix1 r) = x (ix1 (srcRow hN idx r)) := by
  unfold Host.gather
  congr 1
  funext a
  obtain rfl : a = 0 := Subsingleton.elim _ _
  refine Fin.ext ?_
  show (entriesDims N R wf).start (ix1 r) idx 0 + (entriesDims N R wf).batchCoord (ix1 r) 0
    + (entriesDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 r) ⟨List.idxOf (0 : Fin 1) (entriesDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Idealize.ShloMosaic.GatherRows
-- ==== Proof.LibRowScatter.lean ====
/-
  The row scatter-add that a segment sum lowers to, on the extended reals, read at an element.

  The operand is an [R, C] array, the scatter indices an [E, 1] column of signed words, the updates an [E, C] array;
  update row e is added into operand row (index e), column by column, and is dropped when that row number is
  negative or not below R. So entry (r, k) of the result is the operand's entry plus the sum, over the update rows e
  whose index is r, of the update's entry (e, k):  out(r,k) = x(r,k) + Σ_e [idx e = r] · U(e,k).
  Two such scatters through the same indices agree at matching entries when their operands and the update columns do
  (`rowScatter_congr`), and a scatter of a constant real column into a zero column is real at every row
  (`rowScatter_count_real`). Generic in the extents; the dimension numbers are the literal ones of such a scatter.
-/
import Idealize.ShloMosaic.PureOps.Ideal
import Idealize.ShloMosaic.PureOps.Ideal.Laws
import Idealize.ShloMosaic.Lib.ValueIdx
import Idealize.ShloMosaic.Lib.Pipeline.Value
import Mathlib.Algebra.BigOperators.Group.Finset.Piecewise

noncomputable section

open scoped BigOperators

namespace Cert.SegmentSum

open Idealize.ShloMosaic Idealize.ShloMosaic.ValueIdx

variable {R C E w : ℕ}

/-- The dimension numbers of a row scatter: update axis 1 is the window, operand axis 0 is indexed. -/
abbrev rowDims (wf : ScatterDims.WF (⟨2, ![R, C]⟩ : Shape) (⟨2, ![E, 1]⟩ : Shape) (⟨2, ![E, C]⟩ : Shape) [1] [0] [0] 1) :
    ScatterDims (⟨2, ![R, C]⟩ : Shape) (⟨2, ![E, 1]⟩ : Shape) (⟨2, ![E, C]⟩ : Shape) :=
  ⟨[1], [0], [0], 1, wf⟩

variable (wf : ScatterDims.WF (⟨2, ![R, C]⟩ : Shape) (⟨2, ![E, 1]⟩ : Shape) (⟨2, ![E, C]⟩ : Shape) [1] [0] [0] 1)

theorem start_zero (j : (⟨2, ![E, C]⟩ : Shape).Idx) (idx : IVec (⟨2, ![E, 1]⟩ : Shape) w) :
    (rowDims wf).start j idx 0 = (idx (ix2 (j 0) (0 : Fin 1))).toInt := by
  unfold ScatterDims.start
  rw [dif_pos (show ((0 : Fin 2) ∈ ([0] : List (Fin 2))) by decide)]
  refine congrArg (fun q => (idx q).toInt) ?_
  funext b; apply Fin.ext
  match b with
  | ⟨0, _⟩ => rfl
  | ⟨1, _⟩ => rfl

theorem start_one (j : (⟨2, ![E, C]⟩ : Shape).Idx) (idx : IVec (⟨2, ![E, 1]⟩ : Shape) w) :
    (rowDims wf).start j idx 1 = 0 := by
  unfold ScatterDims.start
  rw [dif_neg (show ¬ ((1 : Fin 2) ∈ ([0] : List (Fin 2))) by decide)]

theorem window_zero (j : (⟨2, ![E, C]⟩ : Shape).Idx) : (rowDims wf).window j 0 = 0 := by
  have h0 : ¬ ((0 : Fin 2) ∈ (rowDims wf).sKept) := show ¬ ((0 : Fin 2) ∈ ([1] : List (Fin 2))) by decide
  unfold ScatterDims.window
  exact dif_neg h0

theorem window_one (j : (⟨2, ![E, C]⟩ : Shape).Idx) : (rowDims wf).window j 1 = (j 1).val := by
  have h1 : (1 : Fin 2) ∈ (rowDims wf).sKept := show ((1 : Fin 2) ∈ ([1] : List (Fin 2))) by decide
  unfold ScatterDims.window
  exact (dif_pos h1).trans rfl

/-- Update (e, c) lands on operand entry (r, k) exactly when row e's index, read signed, is r and c is k. -/
theorem resultIdx_iff (j : (⟨2, ![E, C]⟩ : Shape).Idx) (idx : IVec (⟨2, ![E, 1]⟩ : Shape) w) (r : Fin R) (k : Fin C) :
    (rowDims wf).resultIdx? j idx = some (ix2 r k)
      ↔ (idx (ix2 (j 0) (0 : Fin 1))).toInt = (r.val : ℤ) ∧ (j 1).val = k.val := by
  have hstart0 := start_zero wf j idx
  have hstart1 := start_one wf j idx
  have hwin0 := window_zero wf j
  have hwin1 := window_one wf j
  unfold ScatterDims.resultIdx?
  constructor
  · intro h
    split at h
    · rename_i hall
      have hf := Option.some.inj h
      have e0 : ((rowDims wf).start j idx 0 + ((rowDims wf).window j 0 : ℤ)).toNat = r.val :=
        congrArg (fun f => (f 0).val) hf
      have e1 : ((rowDims wf).start j idx 1 + ((rowDims wf).window j 1 : ℤ)).toNat = k.val :=
        congrArg (fun f => (f 1).val) hf
      have a0 := (hall 0).1
      rw [hstart0, hwin0] at e0 a0
      rw [hstart1, hwin1] at e1
      constructor <;> omega
    · exact absurd h (by simp)
  · rintro ⟨hT, hk⟩
    have hr := r.isLt
    have hkk := k.isLt
    split
    · refine congrArg some (funext fun a => Fin.ext ?_)
      match a with
      | ⟨0, _⟩ =>
        show ((rowDims wf).start j idx 0 + ((rowDims wf).window j 0 : ℤ)).toNat = r.val
        rw [hstart0, hwin0, hT]; omega
      | ⟨1, _⟩ =>
        show ((rowDims wf).start j idx 1 + ((rowDims wf).window j 1 : ℤ)).toNat = k.val
        rw [hstart1, hwin1]; omega
    · rename_i hall
      refine absurd (fun a => ?_) hall
      match a with
      | ⟨0, _⟩ =>
        show 0 ≤ (rowDims wf).start j idx 0 + ((rowDims wf).window j 0 : ℤ)
          ∧ (rowDims wf).start j idx 0 + ((rowDims wf).window j 0 : ℤ) < (R : ℤ)
        rw [hstart0, hwin0, hT]; omega
      | ⟨1, _⟩ =>
        show 0 ≤ (rowDims wf).start j idx 1 + ((rowDims wf).window j 1 : ℤ)
          ∧ (rowDims wf).start j idx 1 + ((rowDims wf).window j 1 : ℤ) < (C : ℤ)
        rw [hstart1, hwin1]; omega

/-- The segment sum of column k of the updates into row r: the rows whose index is r, added up. -/
def segSum (idx : IVec (⟨2, ![E, 1]⟩ : Shape) w) (U : (⟨2, ![E, C]⟩ : Shape).Idx → EReal) (r : ℕ) (k : Fin C) : EReal :=
  ∑ e : Fin E, if (idx (ix2 e (0 : Fin 1))).toInt = (r : ℤ) then U (ix2 e k) else 0

/-- A ROW SCATTER-ADD READ AT (r, k): the operand's entry plus the segment sum of the updates' column k into row r. -/
theorem rowScatter_apply (x : (⟨2, ![R, C]⟩ : Shape).Idx → EReal) (idx : IVec (⟨2, ![E, 1]⟩ : Shape) w)
    (U : (⟨2, ![E, C]⟩ : Shape).Idx → EReal) (r : Fin R) (k : Fin C) :
    (Host.scatterAdd (F := Ideal) (φ := .f32) (rowDims wf) x idx U : (⟨2, ![R, C]⟩ : Shape).Idx → EReal) (ix2 r k)
      = x (ix2 r k) + segSum idx U r.val k := by
  show Ideal.hostScatterAdd (rowDims wf) x idx U (ix2 r k) = _
  unfold Ideal.hostScatterAdd
  refine congrArg (x (ix2 r k) + ·) ?_
  rw [Finset.sum_filter, sum_idx2]
  unfold segSum
  refine Finset.sum_congr rfl fun e _ => ?_
  by_cases hT : (idx (ix2 e (0 : Fin 1))).toInt = (r.val : ℤ)
  · rw [if_pos hT, Finset.sum_eq_single k]
    · exact if_pos ((resultIdx_iff wf (ix2 e k) idx r k).mpr ⟨hT, rfl⟩)
    · intro c _ hc
      exact if_neg (fun h => hc (Fin.ext ((resultIdx_iff wf (ix2 e c) idx r k).mp h).2))
    · intro h
      exact absurd (Finset.mem_univ k) h
  · rw [if_neg hT]
    exact Finset.sum_eq_zero fun c _ => if_neg (fun h => hT ((resultIdx_iff wf (ix2 e c) idx r k).mp h).1)

/-- Two row scatter-adds through the same indices agree at entries (r, k') and (r, k) whenever their operands agree
    there and column k' of the one's updates is column k of the other's: a scatter of rows with a column joined on,
    read at a column of the original, is the scatter of the original rows. -/
theorem rowScatter_congr {C' : ℕ}
    (wf' : ScatterDims.WF (⟨2, ![R, C']⟩ : Shape) (⟨2, ![E, 1]⟩ : Shape) (⟨2, ![E, C']⟩ : Shape) [1] [0] [0] 1)
    (x' : (⟨2, ![R, C']⟩ : Shape).Idx → EReal) (x : (⟨2, ![R, C]⟩ : Shape).Idx → EReal)
    (idx : IVec (⟨2, ![E, 1]⟩ : Shape) w)
    (U' : (⟨2, ![E, C']⟩ : Shape).Idx → EReal) (U : (⟨2, ![E, C]⟩ : Shape).Idx → EReal)
    (r : Fin R) (k' : Fin C') (k : Fin C) (hx : x' (ix2 r k') = x (ix2 r k))
    (hU : ∀ e : Fin E, U' (ix2 e k') = U (ix2 e k)) :
    (Host.scatterAdd (F := Ideal) (φ := .f32) (rowDims wf') x' idx U' : (⟨2, ![R, C']⟩ : Shape).Idx → EReal) (ix2 r k')
      = (Host.scatterAdd (F := Ideal) (φ := .f32) (rowDims wf) x idx U : (⟨2, ![R, C]⟩ : Shape).Idx → EReal) (ix2 r k) := by
  rw [rowScatter_apply, rowScatter_apply, hx]
  unfold segSum
  simp only [hU]

/-- A row scatter-add of a column of one constant c into a zero column gives, at every row, a real number when c
    is: the count of the update rows landing there, times c. Stated for c the word of 1.0 and the operand zero. -/
theorem rowScatter_count_real
    (wf1 : ScatterDims.WF (⟨2, ![R, 1]⟩ : Shape) (⟨2, ![E, 1]⟩ : Shape) (⟨2, ![E, 1]⟩ : Shape) [1] [0] [0] 1)
    (x : (⟨2, ![R, 1]⟩ : Shape).Idx → EReal) (idx : IVec (⟨2, ![E, 1]⟩ : Shape) w)
    (U : (⟨2, ![E, 1]⟩ : Shape).Idx → EReal) (one : EReal) (hone : ∃ c : ℝ, one = (c : EReal))
    (hx : ∀ i, x i = 0) (hU : ∀ i, U i = one) (r : Fin R) :
    ∃ c : ℝ, (Host.scatterAdd (F := Ideal) (φ := .f32) (rowDims wf1) x idx U : (⟨2, ![R, 1]⟩ : Shape).Idx → EReal)
      (ix2 r (0 : Fin 1)) = (c : EReal) := by
  obtain ⟨c1, hc1⟩ := hone
  rw [rowScatter_apply, hx, zero_add]
  unfold segSum
  simp only [hU, hc1]
  classical
  induction (Finset.univ : Finset (Fin E)) using Finset.induction_on with
  | empty => exact ⟨0, by simp⟩
  | insert a t ha ih =>
    obtain ⟨c, hc⟩ := ih
    rw [Finset.sum_insert ha, hc]
    by_cases h : (idx (ix2 a (0 : Fin 1))).toInt = (r.val : ℤ)
    · exact ⟨c1 + c, by rw [if_pos h, ← EReal.coe_add]⟩
    · exact ⟨c, by rw [if_neg h, zero_add]⟩

end Cert.SegmentSum

end
-- ==== Proof.Stages.lean ====
/-
  The graph convolution's host stages, as functions of the node features x : [100000, 128], the edge list
  ei : [2, 1600000] (row 0 the source node of every edge, row 1 its target) and the weight W : [256, 128].

  Both programs compute, from the targets alone, the degree g(n) = the number of edges landing on node n and the
  factor s(n) = where(g n > 0, rsqrt(where(g n > 0, g n, 1)), 0). They differ in where the factors meet the sum over
  the edges landing on n:
    the one scales the rows first,  A(n, k) = Σ_{e → n} (x·s)(src e, k),  and multiplies by s(n) afterwards;
    the other scales every message,  B(n, k) = Σ_{e → n} x(src e, k) · (s(src e) · s(tgt e)).
  A source index is wrapped when negative and clamped into the node range by the gather, the same way in both; a target
  index outside the node range lands nowhere. The result is [x | B] · W, the feature columns joined to the
  aggregated ones and contracted with W.
-/
import proofs.«165505_j13056700579874_2_alg».proof.Proof.LibGatherRows
import proofs.«165505_j13056700579874_2_alg».proof.Proof.LibRowScatter
import Idealize.ShloMosaic.PureOps
import Idealize.ShloMosaic.PureOps.Ideal

noncomputable section

namespace Cert.GraphConv

open Idealize.ShloMosaic

/-! ## Shapes -/

abbrev Nodes : Shape := ⟨1, ![100000]⟩
abbrev NodeCol : Shape := ⟨2, ![100000, 1]⟩
abbrev NodeFeat : Shape := ⟨2, ![100000, 128]⟩
abbrev NodeJoin : Shape := ⟨2, ![100000, 256]⟩
abbrev Weights : Shape := ⟨2, ![256, 128]⟩
abbrev Edges : Shape := ⟨1, ![1600000]⟩
abbrev EdgeCol : Shape := ⟨2, ![1600000, 1]⟩
abbrev EdgeRow : Shape := ⟨2, ![1, 1600000]⟩
abbrev EdgePair : Shape := ⟨2, ![2, 1600000]⟩
abbrev EdgeFeat : Shape := ⟨2, ![1600000, 128]⟩
abbrev Unit0 : Shape := ⟨0, ![]⟩

/-! ## The shape relations the operations ask for -/

theorem slice_src : EdgePair.Slices ![0, 0] EdgeRow := by decide
theorem slice_tgt : EdgePair.Slices ![1, 0] EdgeRow := by decide
theorem cast_row : EdgeRow.ShapeCasts Edges := by decide
theorem cast_col : Nodes.ShapeCasts NodeCol := by decide
theorem splat_edges : Unit0.BroadcastsInDim Edges (![] : Fin 0 → Fin Edges.rank) := by decide
theorem splat_nodes : Unit0.BroadcastsInDim Nodes (![] : Fin 0 → Fin Nodes.rank) := by decide
theorem splat_nodeFeat : Unit0.BroadcastsInDim NodeFeat (![] : Fin 0 → Fin NodeFeat.rank) := by decide
theorem edges_col : Edges.BroadcastsInDim EdgeCol (![0] : Fin 1 → Fin EdgeCol.rank) := by decide
theorem nodes_col : Nodes.BroadcastsInDim NodeCol (![0] : Fin 1 → Fin NodeCol.rank) := by decide
theorem nodeCol_feat : NodeCol.BroadcastsInDim NodeFeat (![0, 1] : Fin 2 → Fin NodeFeat.rank) := by decide
theorem edgeCol_feat : EdgeCol.BroadcastsInDim EdgeFeat (![0, 1] : Fin 2 → Fin EdgeFeat.rank) := by decide
theorem join_cols : Shape.Concatenates [NodeFeat, NodeFeat] NodeJoin 1 := by decide
theorem count_wf : ScatterDims.WF Nodes EdgeCol Edges [] [0] [0] 1 := by decide
theorem rowScatter_wf : ScatterDims.WF NodeFeat EdgeCol EdgeFeat [1] [0] [0] 1 := by decide
theorem rowGather_wf : GatherDims.WF NodeFeat EdgeCol EdgeFeat [1] [0] [] [0] [] 1 ![1, 128] := by decide
theorem entryGather_wf : GatherDims.WF Nodes EdgeCol Edges [] [0] [] [0] [] 1 ![1] := by decide
theorem dot_wf : DotDims.WF NodeJoin Weights NodeFeat [1] [0] [0] [1] [] [] := by decide

/-! ## The dimension numbers -/

/-- Counting: one entry of a vector of ones is added into the node its index names. -/
def countDims : ScatterDims Nodes EdgeCol Edges where
  updateWindowDims := []
  insertedWindowDims := [0]
  scatterDimsToOperandDims := [0]
  indexVectorDim := 1
  wf := count_wf

/-- Row scatter-add of [1600000, 128] rows into [100000, 128]. -/
abbrev rowScatter : ScatterDims NodeFeat EdgeCol EdgeFeat := Cert.SegmentSum.rowDims rowScatter_wf
/-- Gather of whole rows of a [100000, 128] array, one per edge. -/
abbrev rowGather : GatherDims NodeFeat EdgeCol EdgeFeat := GatherRows.rowsDims 100000 128 1600000 rowGather_wf
/-- Gather of single entries of a [100000] vector, one per edge. -/
abbrev entryGather : GatherDims Nodes EdgeCol Edges := GatherRows.entriesDims 100000 1600000 entryGather_wf

/-- [100000, 256] · [256, 128], contracting the 256 joined columns with the weight's rows. -/
def joinDot : DotDims NodeJoin Weights NodeFeat where
  lhsContracting := [1]
  rhsContracting := [0]
  lhsNonContracting := [0]
  rhsNonContracting := [1]
  lhsBatch := []
  rhsBatch := []
  wf := dot_wf

/-! ## The stages -/

/-- The source node of every edge: row 0 of the edge list. -/
def srcOf (ei : IVec EdgePair 32) : IVec Edges 32 :=
  shapeCast Edges (extractStridedSlice EdgeRow ![0, 0] ei slice_src) cast_row

/-- The target node of every edge: row 1 of the edge list. -/
def tgtOf (ei : IVec EdgePair 32) : IVec Edges 32 :=
  shapeCast Edges (extractStridedSlice EdgeRow ![1, 0] ei slice_tgt) cast_row

/-- A vector of per-edge indices as the [1600000, 1] column a gather or a scatter takes. -/
def asCol (v : IVec Edges 32) : IVec EdgeCol 32 := broadcastInDim EdgeCol ![0] edges_col v

/-- Python's wrap-around of a negative index: where(i < 0, i + 100000, i). -/
def wrap (v : IVec Edges 32) : IVec Edges 32 :=
  select (cmpi .slt v (broadcastInDim Edges ![] splat_edges (constantI Unit0 32 0#32)))
    (addi v (broadcastInDim Edges ![] splat_edges (constantI Unit0 32 100000#32))) v

/-- The zero vector over the nodes. -/
def zeroNodes : FVec Ideal Nodes .f32 :=
  broadcastInDim Nodes ![] splat_nodes (constant (F := Ideal) Unit0 .f32 0x00000000#32)

/-- The zero array over nodes and features. -/
def zeroNodeFeat : FVec Ideal NodeFeat .f32 :=
  broadcastInDim NodeFeat ![] splat_nodeFeat (constant (F := Ideal) Unit0 .f32 0x00000000#32)

/-- The degree: a one for every edge, added into the edge's target node. -/
def degree (ei : IVec EdgePair 32) : FVec Ideal Nodes .f32 :=
  Host.scatterAdd (F := Ideal) countDims zeroNodes (asCol (tgtOf ei))
    (broadcastInDim Edges ![] splat_edges (constant (F := Ideal) Unit0 .f32 0x3F800000#32))

/-- The normalising factor s(n) = where(g n > 0, rsqrt(where(g n > 0, g n, 1)), 0). -/
def invSqrtDeg (ei : IVec EdgePair 32) : FVec Ideal Nodes .f32 :=
  select (cmpf .ogt (degree ei) zeroNodes)
    (Host.rsqrt (F := Ideal) (select (cmpf .ogt (degree ei) zeroNodes) (degree ei)
      (broadcastInDim Nodes ![] splat_nodes (constant (F := Ideal) Unit0 .f32 0x3F800000#32))))
    zeroNodes

/-- Rows scaled first: the segment sum over the edges landing on a node of the scaled source rows (x·s)(src e, ·). -/
def aggScaledRows (x : FVec Ideal NodeFeat .f32) (ei : IVec EdgePair 32) : FVec Ideal NodeFeat .f32 :=
  Host.scatterAdd (F := Ideal) rowScatter zeroNodeFeat (asCol (tgtOf ei))
    (Host.gather rowGather
      (mulf x (broadcastInDim NodeFeat ![0, 1] nodeCol_feat (broadcastInDim NodeCol ![0] nodes_col (invSqrtDeg ei))))
      (asCol (wrap (srcOf ei))))

/-- The factor as the column [100000, 1] the fused stage multiplies the aggregated rows by. -/
def invSqrtDegCol (ei : IVec EdgePair 32) : FVec Ideal NodeCol .f32 := shapeCast NodeCol (invSqrtDeg ei) cast_col

/-- Messages scaled one by one: the segment sum of x(src e, ·) · (s(src e) · s(tgt e)). -/
def aggMessages (x : FVec Ideal NodeFeat .f32) (ei : IVec EdgePair 32) : FVec Ideal NodeFeat .f32 :=
  Host.scatterAdd (F := Ideal) rowScatter zeroNodeFeat (asCol (tgtOf ei))
    (mulf (Host.gather rowGather x (asCol (wrap (srcOf ei))))
      (broadcastInDim EdgeFeat ![0, 1] edgeCol_feat (broadcastInDim EdgeCol ![0] edges_col
        (mulf (Host.gather entryGather (invSqrtDeg ei) (asCol (wrap (srcOf ei))))
          (Host.gather entryGather (invSqrtDeg ei) (asCol (wrap (tgtOf ei))))))))

/-- The layer: [x | B] · W. -/
def layer (x : FVec Ideal NodeFeat .f32) (ei : IVec EdgePair 32) (w : FVec Ideal Weights .f32) : FVec Ideal NodeFeat .f32 :=
  Host.dotGeneral (F := Ideal) joinDot none
    (concatenate NodeJoin 1 [⟨NodeFeat, x⟩, ⟨NodeFeat, aggMessages x ei⟩] join_cols) w

end Cert.GraphConv

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.LayerJoin.lean ====
/-
  The joined row [X | A] and the contraction with the weight.

  Two [a, 128] arrays joined along the columns, read at (p, k), give X(p, k) for k < 128 and A(p, k − 128) after;
  the layer's result at (n, q) is the sum over the 256 joined columns k of [x | B](n, k) · W(k, q).
-/
import proofs.«165505_j13056700579874_2_alg».proof.Proof.Stages
import proofs.«165505_j13056700579874_2_alg».proof.Proof.LibRowColDot
import Idealize.ShloMosaic.Lib.ValueIdx
import Idealize.ShloMosaic.Lib.Pipeline.Value
import Idealize.ShloMosaic.PureOps.Ideal.Laws

noncomputable section

open scoped BigOperators

namespace Cert.GraphConv

open Idealize.ShloMosaic Idealize.ShloMosaic.ValueIdx

/-! ## The joined row and the contraction -/

/-- Row p of [X | A], with X and A given by their entries at (row, column): the first 128 columns are X's, the next
    128 are A's. -/
def joinRow {a : ℕ} (X A : Fin a → Fin 128 → EReal) (p : Fin a) (k : Fin 256) : EReal :=
  if h : k.val < 128 then X p ⟨k.val, h⟩ else A p ⟨k.val - 128, by omega⟩

/-- The joined row depends only on the one row of each of its pieces: rows that agree, of arrays of any heights, join
    to the same row. -/
theorem joinRow_congr {a a' : ℕ} {X A : Fin a → Fin 128 → EReal} {X' A' : Fin a' → Fin 128 → EReal} {p : Fin a} {n : Fin a'}
    (hX : ∀ c, X p c = X' n c) (hA : ∀ c, A p c = A' n c) (k : Fin 256) : joinRow X A p k = joinRow X' A' n k := by
  unfold joinRow
  by_cases hk : k.val < 128
  · rw [dif_pos hk, dif_pos hk, hX]
  · rw [dif_neg hk, dif_neg hk, hA]

/-- Two [a, 128] arrays joined along the columns, read at (p, k). -/
theorem join_apply {a : ℕ} (X A : (⟨2, ![a, 128]⟩ : Shape).Idx → EReal)
    (h : Shape.Concatenates [(⟨2, ![a, 128]⟩ : Shape), ⟨2, ![a, 128]⟩] ⟨2, ![a, 256]⟩ 1) (p : Fin a) (k : Fin 256) :
    concatenate (⟨2, ![a, 256]⟩ : Shape) 1 [⟨⟨2, ![a, 128]⟩, X⟩, ⟨⟨2, ![a, 128]⟩, A⟩] h (ix2 p k)
      = joinRow (fun r c => X (ix2 r c)) (fun r c => A (ix2 r c)) p k := by
  unfold joinRow
  by_cases hk : k.val < 128
  · rw [dif_pos hk]
    refine concatenate_pair_apply_left 1 X A h (ix2 p k) rfl (ix2 p ⟨k.val, hk⟩) fun b => ?_
    match b with
    | ⟨0, _⟩ => rfl
    | ⟨1, _⟩ => rfl
  · rw [dif_neg hk]
    refine concatenate_pair_apply_right 1 X A h (ix2 p k) rfl rfl (ix2 p ⟨k.val - 128, by omega⟩) (fun b hb => ?_) ?_
    · match b with
      | ⟨0, _⟩ => rfl
      | ⟨1, _⟩ => exact absurd rfl hb
    · show (k.val - 128) + 128 = k.val
      omega

theorem joinDot_lhs0 (j : NodeFeat.Idx) (q : joinDot.contr.Idx) : (joinDot.lhsIdx j q 0).val = (j 0).val := by
  unfold DotDims.lhsIdx
  rw [dif_neg (show ¬(0 : Fin NodeJoin.rank) ∈ joinDot.lhsBatch by decide),
    dif_pos (show (0 : Fin NodeJoin.rank) ∈ joinDot.lhsNonContracting by decide)]
  rfl

theorem joinDot_rhs1 (j : NodeFeat.Idx) (q : joinDot.contr.Idx) : (joinDot.rhsIdx j q 1).val = (j 1).val := by
  unfold DotDims.rhsIdx
  rw [dif_neg (show ¬(1 : Fin Weights.rank) ∈ joinDot.rhsBatch by decide),
    dif_pos (show (1 : Fin Weights.rank) ∈ joinDot.rhsNonContracting by decide)]
  rfl

/-- The layer at (n, q): the 256 joined columns of row n against column q of W. -/
theorem layer_apply (x : FVec Ideal NodeFeat .f32) (ei : IVec EdgePair 32) (w : FVec Ideal Weights .f32)
    (n : Fin 100000) (q : Fin 128) :
    layer x ei w (ix2 n q)
      = ∑ k : Fin 256, joinRow (fun r c => x (ix2 r c)) (fun r c => aggMessages x ei (ix2 r c)) n k * w (ix2 k q) := by
  unfold layer
  refine (Cert.RowColDot.hostDot_rowcol joinDot rfl rfl rfl rfl joinDot_lhs0 joinDot_rhs1 none _ w (ix2 n q)).trans ?_
  refine Finset.sum_congr rfl fun k _ => ?_
  rw [show (ix2 n q : NodeFeat.Idx) 0 = n from rfl, show (ix2 n q : NodeFeat.Idx) 1 = q from rfl, join_apply]

end Cert.GraphConv

end
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.KernelBody.lean ====
/-
  The fused stage's one stored value, read at an entry.

  At a grid point the body loads a [5000, 128] block of x, the block of the aggregated rows A with the same rows, the
  column [5000, 1] of factors s for those rows and the whole weight W, multiplies every row of A by its factor, joins
  x's block with the scaled block along the columns and contracts the 256 joined columns with W into a zero
  accumulator. The changes of float format are the identity on the extended reals. So the stored block's entry
  (p, q) is  Σ_{k < 256} [x | A·s](p, k) · W(k, q).
-/
import proofs.«165505_j13056700579874_2_alg».proof.Proof.Gen.KernelIdeal.Skeleton
import proofs.«165505_j13056700579874_2_alg».proof.Proof.LayerJoin
import proofs.«165505_j13056700579874_2_alg».proof.Proof.LibRowColDot
import proofs.«165505_j13056700579874_2_alg».proof.Proof.LibColumnBroadcast
import Idealize.ShloMosaic.Lib.ValueIdx
import Idealize.ShloMosaic.Lib.Pipeline.Value

noncomputable section

open scoped BigOperators

namespace Cert.KernelIdeal.Body

open Cert.KernelIdeal Cert.KernelIdeal.Gen Idealize.ShloMosaic Idealize.ShloMosaic.ValueIdx

theorem dot_lhs0 (j : S5000x128.Idx) (q : dot_S5000x256_S256x128_S5000x128_1_0_0_1_n_n.contr.Idx) : (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

theorem dot_rhs1 (j : S5000x128.Idx) (q : dot_S5000x256_S256x128_S5000x128_1_0_0_1_n_n.contr.Idx) : (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- Row p of the joined operand: x's block, then the aggregated block with every row times its factor. -/
theorem joined_apply (agg : Vec Ideal S5000x128 .f32) (fac : Vec Ideal S5000x1 .f32) (xb : Vec Ideal S5000x128 .f32)
    (p : Fin 5000) (k : Fin 256) :
    Cert.GraphConv.joinRow
        (fun r c => (truncf (F := Ideal) .bf16 xb bitsLt_bf16_f32 : FVec Ideal S5000x128 .bf16) (ix2 r c))
        (fun r c => (truncf (F := Ideal) .bf16 (mulf (shapeCast S5000x128 agg shapeCasts_S5000x128_S5000x128)
          (broadcastTo S5000x128 (shapeCast S5000x1 fac shapeCasts_S5000x1_S5000x1) broadcasts_S5000x1_S5000x128))
          bitsLt_bf16_f32 : FVec Ideal S5000x128 .bf16) (ix2 r c)) p k
      = Cert.GraphConv.joinRow (fun r c => xb (ix2 r c)) (fun r c => agg (ix2 r c) * fac (ix2 r (0 : Fin 1))) p k := by
  refine Cert.GraphConv.joinRow_congr (fun c => ?_) (fun c => ?_) k
  · exact truncf_apply _ _ _
  · show (truncf (F := Ideal) .bf16 _ bitsLt_bf16_f32 : FVec Ideal S5000x128 .bf16) (ix2 p c) = _
    rw [truncf_apply, mulf_apply, shapeCast_self, shapeCast_self, Cert.WeightUpdate.Layout.broadcastTo_a1_ab_apply]

/-- The stored block at (p, q). -/
theorem pay_apply (agg : Vec Ideal S5000x128 .f32) (fac : Vec Ideal S5000x1 .f32) (xb : Vec Ideal S5000x128 .f32)
    (wb : Vec Ideal S256x128 .f32) (p : Fin 5000) (q : Fin 128) :
    k0_pay1 (F := Ideal) agg fac xb wb (ix2 p q)
      = ∑ k : Fin 256, Cert.GraphConv.joinRow (fun r c => xb (ix2 r c))
          (fun r c => agg (ix2 r c) * fac (ix2 r (0 : Fin 1))) p k * wb (ix2 k q) := by
  unfold k0_pay1
  refine (Cert.RowColDot.matmul_rowcol dot_S5000x256_S256x128_S5000x128_1_0_0_1_n_n rfl rfl rfl rfl dot_lhs0 dot_rhs1 none _ _ (ix2 p q)).trans ?_
  refine Finset.sum_congr rfl fun k _ => ?_
  refine congrArg₂ (· * ·) ?_ ?_
  · exact (Cert.GraphConv.join_apply _ _ concatenates_S5000x128_S5000x128_S5000x256_d1 p k).trans
      (joined_apply agg fac xb p k)
  · rfl

end Cert.KernelIdeal.Body

end
-- ==== Proof.LibRealSums.lean ====
/-
  Real entries of the extended reals, and two laws of finite sums that hold for them.

  An extended real is called real (`IsReal`) when it is the coercion of a real number: neither +∞ nor −∞.
  Sums and products of reals are real, the logistic function of a real is real, an extended real whose absolute
  value max x (−x) is below +∞ is real, and the f32 words 0x7F800000 and 0xFF800000 denote +∞ and −∞.

  On the extended reals the multiplication does not distribute over addition at the infinities, so the two laws
  are stated for real entries. `sum_scale_comm`: in a finite sum of products, a scale applied to one factor of
  every term is the scale applied to the finished sum. `softmax_div_comm`: for a row r with no entry +∞ and some
  entry above −∞, the weights e^(r j − max r) are reals that are not negative and their total is a positive
  real; so the normalisation by the total can be exchanged with the weighted sum of real values — dividing each
  weight by the total first, or the weighted sum afterwards, gives the same real.
-/
import Mathlib.Data.EReal.Inv
import Mathlib.Data.Finset.Fold
import Idealize.ShloMosaic.PureOps.Ideal
import Idealize.ShloMosaic.PureOps.Ideal.Laws
import Idealize.ShloMosaic.Lib.IdealHost

noncomputable section

open scoped BigOperators

namespace Cert.Math

open Idealize.ShloMosaic

/-! ### Real extended reals -/

/-- An extended real that is the coercion of a real number. -/
def IsReal (x : EReal) : Prop := ∃ r : ℝ, x = (r : EReal)

/-- A real is not +∞. -/
theorem IsReal.ne_top {x : EReal} : IsReal x → x ≠ ⊤ := by
  rintro ⟨r, rfl⟩; exact EReal.coe_ne_top r

/-- A real is not −∞. -/
theorem IsReal.ne_bot {x : EReal} : IsReal x → x ≠ ⊥ := by
  rintro ⟨r, rfl⟩; exact EReal.coe_ne_bot r

/-- The coercion of a real number is real. -/
theorem isReal_coe (r : ℝ) : IsReal (r : EReal) := ⟨r, rfl⟩

/-- Zero is real. -/
theorem isReal_zero : IsReal 0 := ⟨0, EReal.coe_zero.symm⟩

/-- A product of reals is real. -/
theorem IsReal.mul {x y : EReal} : IsReal x → IsReal y → IsReal (x * y) := by
  rintro ⟨a, rfl⟩ ⟨b, rfl⟩; exact ⟨a * b, (EReal.coe_mul a b).symm⟩

/-- A sum of two reals is real. -/
theorem IsReal.add {x y : EReal} : IsReal x → IsReal y → IsReal (x + y) := by
  rintro ⟨a, rfl⟩ ⟨b, rfl⟩; exact ⟨a + b, (EReal.coe_add a b).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih (fun i hi => h i (Finset.mem_insert_of_mem hi)))

/-- The logistic function of a real r is the real 1 / (1 + e^(-r)): the divisor is positive. -/
theorem IsReal.logistic {x : EReal} : IsReal x → IsReal (Ideal.logistic x) := by
  rintro ⟨r, rfl⟩; exact ⟨_, Ideal.logistic_coe r⟩

/-- An extended real whose absolute value max x (-x) is below +∞ is real. -/
theorem isReal_of_abs_lt_top {x : EReal} (h : max x (-x) < ⊤) : IsReal x := by
  induction x using EReal.rec with
  | bot => simp at h
  | coe r => exact ⟨r, rfl⟩
  | top => simp at h

/-- The f32 word with sign 0, all-ones exponent and zero fraction is +∞. -/
theorem ofBits_inf : Ideal.ofBits .f32 0x7F800000#32 = ⊤ := by
  simp [Ideal.ofBits, Ideal.ieee]

/-- The f32 word with sign 1, all-ones exponent and zero fraction is −∞. -/
theorem ofBits_neg_inf : Ideal.ofBits .f32 0xFF800000#32 = ⊥ := by
  simp [Ideal.ofBits, Ideal.ieee]

/-! ### Finite sums of reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A scale applied to one factor of every term of a sum of products of reals is the scale applied to the
    finished sum. -/
theorem sum_scale_comm {ι : Type} [Fintype ι] (q k : ι → EReal) (s : EReal)
    (hq : ∀ h, IsReal (q h)) (hk : ∀ h, IsReal (k h)) (hs : IsReal s) :
    ∑ h, (q h * s) * k h = (∑ h, q h * k h) * s := by
  obtain ⟨s', rfl⟩ := hs
  choose q' hq' using hq
  choose k' hk' using hk
  have e1 : ∀ h ∈ (Finset.univ : Finset ι), (q h * (s' : EReal)) * k h = ((q' h * s' * k' h : ℝ) : EReal) := by
    intro h _; rw [hq' h, hk' h, EReal.coe_mul, EReal.coe_mul]
  have e2 : ∀ h ∈ (Finset.univ : Finset ι), q h * k h = ((q' h * k' h : ℝ) : EReal) := by
    intro h _; rw [hq' h, hk' h, EReal.coe_mul]
  rw [Finset.sum_congr rfl e1, Finset.sum_congr rfl e2, ← coe_sum, ← coe_sum, ← EReal.coe_mul,
    Finset.sum_mul]
  exact congrArg _ (Finset.sum_congr rfl (fun h _ => by ring))

/-! ### The row normalisation -/

/-- For a row r of extended reals none of which is +∞ and one of which is not −∞, the weights
    e^(r j − max r) are real and not negative and their total is positive; so dividing each weight by the
    total before the weighted sum of real values, or the weighted sum afterwards, gives the same real. -/
theorem softmax_div_comm {n : ℕ} (r : Fin n → EReal) (v : Fin n → EReal) (hr : ∀ j, r j ≠ ⊤)
    (j0 : Fin n) (hj0 : r j0 ≠ ⊥) (hv : ∀ j, IsReal (v j)) :
    ∑ j, Ideal.div (Ideal.exp (r j - (Finset.univ : Finset (Fin n)).fold max ⊥ r))
        (∑ j', Ideal.exp (r j' - (Finset.univ : Finset (Fin n)).fold max ⊥ r)) * v j
      = Ideal.div (∑ j, Ideal.exp (r j - (Finset.univ : Finset (Fin n)).fold max ⊥ r) * v j)
        (∑ j', Ideal.exp (r j' - (Finset.univ : Finset (Fin n)).fold max ⊥ r)) := by
  -- the maximum is real: below +∞ since every entry is, above −∞ since it bounds r j0
  have hm_top : (Finset.univ : Finset (Fin n)).fold max ⊥ r < ⊤ :=
    (Finset.fold_max_lt ⊤).mpr ⟨bot_lt_top, fun j _ => lt_top_iff_ne_top.mpr (hr j)⟩
  have hm_ge : r j0 ≤ (Finset.univ : Finset (Fin n)).fold max ⊥ r :=
    (Finset.le_fold_max (r j0)).mpr (Or.inr ⟨j0, Finset.mem_univ j0, le_refl _⟩)
  have hm_bot : (Finset.univ : Finset (Fin n)).fold max ⊥ r ≠ ⊥ := by
    intro e; rw [e] at hm_ge; exact hj0 (le_bot_iff.mp hm_ge)
  generalize (Finset.univ : Finset (Fin n)).fold max ⊥ r = m at hm_top hm_ge hm_bot ⊢
  lift m to ℝ using ⟨hm_top.ne, hm_bot⟩
  -- every weight is a real that is not negative
  have hw : ∀ j, ∃ w : ℝ, 0 ≤ w ∧ Ideal.exp (r j - (m : EReal)) = (w : EReal) := by
    intro j
    induction hx : r j using EReal.rec with
    | bot => exact ⟨0, le_refl _, by rw [EReal.bot_sub, Ideal.exp_bot, EReal.coe_zero]⟩
    | coe a => exact ⟨Real.exp (a - m), (Real.exp_pos _).le, by rw [← EReal.coe_sub, Ideal.exp_coe]⟩
    | top => exact absurd hx (hr j)
  choose w hw0 hw using hw
  choose v' hv' using hv
  -- the weight at j0 is positive, so the total is
  have hwj0 : 0 < w j0 := by
    have h := hw j0
    induction hx : r j0 using EReal.rec with
    | bot => exact absurd hx hj0
    | coe a =>
      rw [hx, ← EReal.coe_sub, Ideal.exp_coe] at h
      rw [← EReal.coe_eq_coe_iff.mp h]; exact Real.exp_pos _
    | top => exact absurd hx (hr j0)
  have hL : 0 < ∑ j, w j :=
    Finset.sum_pos' (fun j _ => hw0 j) ⟨j0, Finset.mem_univ j0, hwj0⟩
  have eL : ∑ j', Ideal.exp (r j' - (m : EReal)) = ((∑ j, w j : ℝ) : EReal) := by
    rw [coe_sum]; exact Finset.sum_congr rfl (fun j _ => hw j)
  rw [eL]
  have e1 : ∀ j ∈ (Finset.univ : Finset (Fin n)),
      Ideal.div (Ideal.exp (r j - (m : EReal))) ((∑ j, w j : ℝ) : EReal) * v j
        = ((w j * (1 / ∑ j, w j) * v' j : ℝ) : EReal) := by
    intro j _
    rw [Ideal.div_coe hL.ne', hw j, hv' j, EReal.coe_mul, EReal.coe_mul]
  have e2 : ∀ j ∈ (Finset.univ : Finset (Fin n)),
      Ideal.exp (r j - (m : EReal)) * v j = ((w j * v' j : ℝ) : EReal) := by
    intro j _
    rw [hw j, hv' j, EReal.coe_mul]
  rw [Finset.sum_congr rfl e1, Finset.sum_congr rfl e2, Ideal.div_coe hL.ne', ← coe_sum, ← coe_sum,
    ← EReal.coe_mul, Finset.sum_mul]
  exact congrArg _ (Finset.sum_congr rfl (fun j _ => by ring))

end Cert.Math

end
-- ==== Proof.LibSymNorm.lean ====
/-
  Three small facts that a symmetric-normalised neighbour sum (a graph convolution's D^(-1/2) A D^(-1/2) x) rests on.
  Imports the library and the real-entries lemmas (IsReal, coe_sum) only.

  1. On the extended reals a product does not distribute over a sum at the infinities, but it does over reals.
     A sum over the edges that land on one node, of terms a·b, scaled afterwards by the node's own factor d, is
     the sum of the terms a·(b·c) whenever the edge's factor c is d on every edge that lands there:
       (Σ_{e lands} a e · b e) · d = Σ_{e lands} a e · (b e · c e).
  2. The guarded reciprocal square root  where(g > 0, rsqrt(where(g > 0, g, 1)), 0)  is a real number whatever the
     extended real g is: when g > 0 it is rsqrt g, which is a real for every positive g (and 0 at +∞), and otherwise
     it is 0. The literal 1 is never reached where the guard holds, so its value plays no part.
  3. A 32-bit index whose signed value is a natural number is left alone by the wrap-around of negative indices
     where(i < 0, i + N, i).
-/
import proofs.«165505_j13056700579874_2_alg».proof.Proof.LibRealSums
import Idealize.ShloMosaic.PureOps.Ideal

noncomputable section

open scoped BigOperators

namespace Cert.GraphConv

open Idealize.ShloMosaic Cert.Math

/-- Scaling a segment sum of real products by a real factor d is multiplying every term by the factor c of its
    own edge, when c is d on the edges of the segment. -/
theorem seg_sum_scale {ι : Type} [Fintype ι] (P : ι → Prop) [DecidablePred P] (a b c : ι → EReal) (d z : EReal)
    (ha : ∀ e, IsReal (a e)) (hb : ∀ e, IsReal (b e)) (hd : IsReal d) (hz : z = 0)
    (hc : ∀ e, P e → c e = d) :
    (z + ∑ e, if P e then a e * b e else 0) * d = z + ∑ e, if P e then a e * (b e * c e) else 0 := by
  subst hz
  obtain ⟨d', rfl⟩ := hd
  choose a' ha' using ha
  choose b' hb' using hb
  have e1 : ∀ e ∈ (Finset.univ : Finset ι),
      (if P e then a e * b e else 0) = (((if P e then a' e * b' e else 0 : ℝ)) : EReal) := by
    intro e _
    by_cases h : P e
    · rw [if_pos h, if_pos h, ha' e, hb' e, EReal.coe_mul]
    · rw [if_neg h, if_neg h, EReal.coe_zero]
  have e2 : ∀ e ∈ (Finset.univ : Finset ι),
      (if P e then a e * (b e * c e) else 0) = (((if P e then a' e * b' e else 0) * d' : ℝ) : EReal) := by
    intro e _
    by_cases h : P e
    · rw [if_pos h, if_pos h, hc e h, ha' e, hb' e, EReal.coe_mul, EReal.coe_mul, mul_assoc]
    · rw [if_neg h, if_neg h, zero_mul, EReal.coe_zero]
  rw [zero_add, zero_add, Finset.sum_congr rfl e1, Finset.sum_congr rfl e2, ← coe_sum, ← coe_sum, ← EReal.coe_mul,
    Finset.sum_mul]

/-- The reciprocal square root of a positive extended real is a real number (0 at +∞). -/
theorem rsqrt_real_of_pos {y : EReal} (hy : 0 < y) : IsReal (Ideal.rsqrt y) := by
  induction y using EReal.rec with
  | bot => exact absurd hy (by simp)
  | top => exact ⟨0, by simp⟩
  | coe r =>
    have hr : 0 < r := by exact_mod_cast hy
    rw [Ideal.rsqrt_coe, if_neg (not_lt.2 hr.le), if_neg hr.ne']
    exact ⟨_, rfl⟩

/-- The guarded reciprocal square root is real at every extended real g: the three zeros are the comparison's two
    and the fallback value, `one` the value the inner guard substitutes where g is not positive. -/
theorem guarded_rsqrt_real (g z₁ z₂ z₃ one : Ideal .f32) (h₁ : z₁ = 0) (h₂ : z₂ = 0) (h₃ : z₃ = 0) :
    IsReal (Scalar.select (FloatOps.cmpf (F := Ideal) (φ := .f32) .ogt g z₁)
      (FloatOps.hostUnary (F := Ideal) (φ := .f32) .rsqrt (Scalar.select (FloatOps.cmpf (F := Ideal) (φ := .f32) .ogt g z₂) g one))
      z₃) := by
  show IsReal (Scalar.select (Ideal.cmp .ogt g z₁) (Ideal.rsqrt (Scalar.select (Ideal.cmp .ogt g z₂) g one)) z₃)
  subst h₁ h₂ h₃
  by_cases h : (0 : EReal) < g
  · have hc : Ideal.cmp .ogt g 0 = 1 := by simp [Ideal.cmp, h]
    rw [hc]
    simp only [Scalar.select, if_true]
    exact rsqrt_real_of_pos h
  · have hc : Ideal.cmp .ogt g 0 ≠ 1 := by simp [Ideal.cmp, h]
    simp only [Scalar.select, if_neg hc]
    exact isReal_zero

/-- The wrap-around of negative indices leaves a word alone when its signed value is a natural number. -/
theorem wrap_of_nonneg (w N : BitVec 32) (n : ℕ) (hw : w.toInt = (n : ℤ)) :
    Scalar.select (IntOp.cmpi .slt w 0#32) (IntOp.addi w N) w = w := by
  have hc : IntOp.cmpi .slt w 0#32 ≠ 1 := by
    have : ¬ w.toInt < 0 := by omega
    simp [IntOp.cmpi, BitVec.slt, this]
  simp only [Scalar.select, if_neg hc]

end Cert.GraphConv

end
-- ==== Proof.LibHostRowReads.lean ====
/-
  Three host operations on matrices, read at an index given by coordinates.

  * a host sum over the columns of an `[a, n]` array of extended reals, read at row `p`, is the initial value plus the
    sum over `k : Fin n` of the entries `(p, k)`;
  * an `[a]` vector placed as the column `[a, 1]` by `broadcast_in_dim` along axis 0 holds, at `(p, u)`, entry `p`;
  * an `[a, n]` array padded with extra rows BELOW (no low padding, no interior padding, columns untouched) holds, at
    a row that is one of the operand's, the operand's entry.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.HostRowReads

open Idealize.ShloMosaic Idealize.ShloMosaic.ValueIdx

/-- A host sum over the columns, read at row `p`: the initial value plus that row's entries summed. -/
theorem hostReduceAdd_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

variable {α : Type}

/-- A vector placed as a column: at `(p, u)` it holds the vector's entry `p`. -/
theorem broadcastInDim_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v _ _ fun ax => by
    match ax with
    | ⟨0, _⟩ =>
      show p.val = if a = 1 then 0 else p.val
      split
      · have := p.isLt; omega
      · rfl

/-- Rows appended below: at a row `c'` that is the operand's row `c`, the padded array holds the operand's entry. -/
theorem pad_rows_below_apply {a a' n e : ℕ} (x : (⟨2, ![a, n]⟩ : Shape).Idx → α) {u : Shape} (v : u.Idx → α)
    (h : (⟨2, ![a, n]⟩ : Shape).Pads (![0, 0] : Fin 2 → Nat) ![e, 0] ![0, 0] ⟨2, ![a', n]⟩) (hu : 0 < u.numel)
    (c : Fin a) (c' : Fin a') (hc : c'.val = c.val) (k : Fin n) :
    pad ⟨2, ![a', n]⟩ ![0, 0] ![e, 0] ![0, 0] x v h hu (ix2 c' k) = x (ix2 c k) :=
  pad_apply_of_inside _ _ _ x v h hu _ _ fun ax => by
    match ax with
    | ⟨0, _⟩ => show c'.val = 0 + c.val * (0 + 1); omega
    | ⟨1, _⟩ => show k.val = 0 + k.val * (0 + 1); omega

end Cert.HostRowReads

end
-- ==== Proof.LayerReads.lean ====
/-
  The graph convolution's stages: layout reads, the factor, and the rows an edge reads.

  A per-edge index vector placed as a column, a column repeated along the columns, a scalar repeated everywhere, read
  at an index. The factor s(n) = where(g n > 0, rsqrt(where(g n > 0, g n, 1)), 0) is a real number at every node whatever
  the degree g n is. The row an edge reads is its index wrapped when negative and clamped into the node range; on an
  edge whose target index, read signed, IS the node number n, the wrapped clamped target is n again.
-/
import proofs.«165505_j13056700579874_2_alg».proof.Proof.Stages
import proofs.«165505_j13056700579874_2_alg».proof.Proof.LibSymNorm
import proofs.«165505_j13056700579874_2_alg».proof.Proof.LibHostRowReads
import Idealize.ShloMosaic.Lib.ValueIdx
import Idealize.ShloMosaic.Lib.Pipeline.Value
import Idealize.ShloMosaic.PureOps.Ideal.Laws

noncomputable section

open scoped BigOperators

namespace Cert.GraphConv

open Idealize.ShloMosaic Idealize.ShloMosaic.ValueIdx Cert.Math

theorem nodes_pos : 0 < 100000 := by norm_num

/-! ## Layout reads -/

/-- The per-edge index column read at (e, 0) is the vector's entry e. -/
theorem asCol_apply (v : IVec Edges 32) (e : Fin 1600000) (u : Fin 1) : asCol v (ix2 e u) = v (ix1 e) :=
  Cert.HostRowReads.broadcastInDim_col_apply v edges_col e u

/-- A column [a, 1] repeated along the columns to [a, b], read at (p, c), is the column's entry p. -/
theorem colRepeat_apply {α : Type} {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ =>
      show (0 : ℕ) = if (1 : ℕ) = 1 then 0 else c.val
      rfl

/-- A scalar repeated over every index of a shape, read anywhere, is the scalar. -/
theorem splat_apply {α : Type} {t : Shape} (h : Unit0.BroadcastsInDim t (![] : Fin 0 → Fin t.rank)) (v : Unit0.Idx → α)
    (i : t.Idx) (j : Unit0.Idx) : broadcastInDim t ![] h v i = v j :=
  broadcastInDim_apply _ h v i j fun a => a.elim0

theorem zeroNodes_apply (i : Nodes.Idx) : zeroNodes i = 0 := by
  unfold zeroNodes
  rw [splat_apply splat_nodes _ i (fun a => a.elim0), constant_apply]
  exact Ideal.ofBits_zero_f32

theorem zeroNodeFeat_apply (i : NodeFeat.Idx) : zeroNodeFeat i = 0 := by
  unfold zeroNodeFeat
  rw [splat_apply splat_nodeFeat _ i (fun a => a.elim0), constant_apply]
  exact Ideal.ofBits_zero_f32

/-! ## The factor is real -/

/-- The guarded reciprocal square root of any vector, against any vector of zeros, is real at every index. -/
theorem guarded_vec_real (g z one : FVec Ideal Nodes .f32) (hz : ∀ i, z i = 0) (i : Nodes.Idx) :
    IsReal (select (cmpf .ogt g z) (Host.rsqrt (F := Ideal) (select (cmpf .ogt g z) g one)) z i) :=
  guarded_rsqrt_real (g i) (z i) (z i) (z i) (one i) (hz i) (hz i) (hz i)

/-- s(n) is a real number at every node, whatever the degree is as an extended real. -/
theorem invSqrtDeg_real (ei : IVec EdgePair 32) (i : Nodes.Idx) : IsReal (invSqrtDeg ei i) :=
  guarded_vec_real (degree ei) zeroNodes
    (broadcastInDim Nodes ![] splat_nodes (constant (F := Ideal) Unit0 .f32 0x3F800000#32)) zeroNodes_apply i

/-! ## Source and target rows -/

/-- The row of x that edge e reads: its source index, wrapped when negative, clamped into the node range. -/
abbrev srcRow (ei : IVec EdgePair 32) (e : Fin 1600000) : Fin 100000 :=
  GatherRows.srcRow nodes_pos (asCol (wrap (srcOf ei))) e

/-- The entry of s that the message of edge e reads for its target: wrapped and clamped the same way. -/
abbrev tgtRow (ei : IVec EdgePair 32) (e : Fin 1600000) : Fin 100000 :=
  GatherRows.srcRow nodes_pos (asCol (wrap (tgtOf ei))) e

/-- On an edge that lands on node n, the wrapped, clamped target is n. -/
theorem tgtRow_of_lands (ei : IVec EdgePair 32) (e : Fin 1600000) (n : Fin 100000)
    (h : (tgtOf ei (ix1 e)).toInt = (n.val : ℤ)) : tgtRow ei e = n := by
  have hw : wrap (tgtOf ei) (ix1 e) = tgtOf ei (ix1 e) := wrap_of_nonneg _ 100000#32 n.val h
  apply Fin.ext
  show min ((asCol (wrap (tgtOf ei)) (ix2 e (0 : Fin 1))).toInt.toNat) (100000 - 1) = n.val
  rw [asCol_apply, hw, h]
  have := n.isLt
  omega

end Cert.GraphConv

end
-- ==== Proof.LayerAgg.lean ====
/-
  The two arrangements of the neighbour sum, read at an entry, and the law that joins them.

  With s the normalising factor, src e the (wrapped, clamped) source row of edge e and "e → n" meaning that the
  target index of e, read as a signed integer, is the node number n:
    rows scaled first   A(n, k) = 0 + Σ_{e → n} x(src e, k) · s(src e)
    messages scaled     B(n, k) = 0 + Σ_{e → n} x(src e, k) · (s(src e) · s(tgt e))
  where tgt e IS n on every edge with e → n. Every s(·) is a real number and so is every entry of a finite x, so
  multiplying the finished sum A(n, k) by the real s(n) is multiplying each of its terms:  A(n, k) · s(n) = B(n, k).
-/
import proofs.«165505_j13056700579874_2_alg».proof.Proof.LayerReads
import proofs.«165505_j13056700579874_2_alg».proof.Proof.LibRowScatter
import proofs.«165505_j13056700579874_2_alg».proof.Proof.LibGatherRows

noncomputable section

open scoped BigOperators

namespace Cert.GraphConv

open Idealize.ShloMosaic Idealize.ShloMosaic.ValueIdx Cert.Math

/-! ## The two aggregations at an entry -/

theorem aggScaledRows_apply (x : FVec Ideal NodeFeat .f32) (ei : IVec EdgePair 32) (n : Fin 100000) (k : Fin 128) :
    aggScaledRows x ei (ix2 n k) = zeroNodeFeat (ix2 n k) + ∑ e : Fin 1600000,
      if (tgtOf ei (ix1 e)).toInt = (n.val : ℤ) then x (ix2 (srcRow ei e) k) * invSqrtDeg ei (ix1 (srcRow ei e)) else 0 := by
  unfold aggScaledRows
  refine (Cert.SegmentSum.rowScatter_apply (R := 100000) (C := 128) (E := 1600000) rowScatter_wf _ _ _ n k).trans ?_
  unfold Cert.SegmentSum.segSum
  refine congrArg (_ + ·) (Finset.sum_congr rfl fun e _ => ?_)
  rw [asCol_apply, GatherRows.gather_rows_apply nodes_pos, mulf_apply, colRepeat_apply,
    Cert.HostRowReads.broadcastInDim_col_apply]

theorem aggMessages_apply (x : FVec Ideal NodeFeat .f32) (ei : IVec EdgePair 32) (n : Fin 100000) (k : Fin 128) :
    aggMessages x ei (ix2 n k) = zeroNodeFeat (ix2 n k) + ∑ e : Fin 1600000,
      if (tgtOf ei (ix1 e)).toInt = (n.val : ℤ)
        then x (ix2 (srcRow ei e) k) * (invSqrtDeg ei (ix1 (srcRow ei e)) * invSqrtDeg ei (ix1 (tgtRow ei e))) else 0 := by
  unfold aggMessages
  refine (Cert.SegmentSum.rowScatter_apply (R := 100000) (C := 128) (E := 1600000) rowScatter_wf _ _ _ n k).trans ?_
  unfold Cert.SegmentSum.segSum
  refine congrArg (_ + ·) (Finset.sum_congr rfl fun e _ => ?_)
  rw [asCol_apply, mulf_apply, GatherRows.gather_rows_apply nodes_pos, colRepeat_apply,
    Cert.HostRowReads.broadcastInDim_col_apply, mulf_apply, GatherRows.gather_entries_apply nodes_pos,
    GatherRows.gather_entries_apply nodes_pos]

/-- THE LAW: on a finite x, the rows-scaled-first sum times the node's own factor is the sum of the scaled messages. -/
theorem agg_eq (x : FVec Ideal NodeFeat .f32) (ei : IVec EdgePair 32) (hx : ∀ i, IsReal (x i))
    (n : Fin 100000) (k : Fin 128) :
    aggScaledRows x ei (ix2 n k) * invSqrtDeg ei (ix1 n) = aggMessages x ei (ix2 n k) := by
  rw [aggScaledRows_apply, aggMessages_apply]
  exact seg_sum_scale (fun e => (tgtOf ei (ix1 e)).toInt = (n.val : ℤ)) (fun e => x (ix2 (srcRow ei e) k))
    (fun e => invSqrtDeg ei (ix1 (srcRow ei e))) (fun e => invSqrtDeg ei (ix1 (tgtRow ei e))) _ _
    (fun e => hx _) (fun e => invSqrtDeg_real ei _) (invSqrtDeg_real ei _) (zeroNodeFeat_apply _)
    (fun e h => by rw [tgtRow_of_lands ei e n h])

end Cert.GraphConv

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LayerFused.lean ====
/-
  The fused arrangement of the layer, and that it is the layer.

  The fused stage is handed x, the rows-scaled-first sum A, the factors s as a column and W, and leaves at (n, q)
      Σ_{k < 256} [x | A·s](n, k) · W(k, q),      (A·s)(n, c) = A(n, c) · s(n).
  On a finite x, A(n, c) · s(n) is the sum B(n, c) of the scaled messages, so this is the layer [x | B] · W.
-/
import proofs.«165505_j13056700579874_2_alg».proof.Proof.LayerJoin
import proofs.«165505_j13056700579874_2_alg».proof.Proof.LayerAgg
import proofs.«165505_j13056700579874_2_alg».proof.Proof.LibKeepdims

noncomputable section

open scoped BigOperators

namespace Cert.GraphConv

open Idealize.ShloMosaic Idealize.ShloMosaic.ValueIdx Cert.Math

/-- Entry (n, q) of what the fused stage leaves, from the four arrays it is handed. -/
def fusedAt (X A : NodeFeat.Idx → EReal) (D : NodeCol.Idx → EReal) (W : Weights.Idx → EReal)
    (n : Fin 100000) (q : Fin 128) : EReal :=
  ∑ k : Fin 256, joinRow (fun r c => X (ix2 r c)) (fun r c => A (ix2 r c) * D (ix2 r (0 : Fin 1))) n k * W (ix2 k q)

/-- The whole array the fused stage leaves. -/
def fusedOut (X A : NodeFeat.Idx → EReal) (D : NodeCol.Idx → EReal) (W : Weights.Idx → EReal) : NodeFeat.Idx → EReal :=
  fun j => fusedAt X A D W ⟨(j 0).val, (j 0).isLt⟩ ⟨(j 1).val, (j 1).isLt⟩

/-- The factors as a column, read at (n, 0). -/
theorem invSqrtDegCol_apply (ei : IVec EdgePair 32) (n : Fin 100000) :
    invSqrtDegCol ei (ix2 n (0 : Fin 1)) = invSqrtDeg ei (ix1 n) :=
  Cert.MemAttn.Layout.shapeCast_a_a1_apply (invSqrtDeg ei) cast_col n 0

/-- On a finite x the fused arrangement, handed the rows-scaled-first sum and the factors, leaves the layer. -/
theorem fusedOut_eq_layer (x : FVec Ideal NodeFeat .f32) (ei : IVec EdgePair 32) (w : FVec Ideal Weights .f32)
    (hx : ∀ i, IsReal (x i)) :
    fusedOut x (aggScaledRows x ei) (invSqrtDegCol ei) w = layer x ei w := by
  funext j
  obtain ⟨n, q, rfl⟩ : ∃ (n : Fin 100000) (q : Fin 128), j = ix2 n q := ⟨j 0, j 1, eq_ix2 j⟩
  rw [layer_apply]
  show fusedAt x (aggScaledRows x ei) (invSqrtDegCol ei) w n q = _
  unfold fusedAt
  refine Finset.sum_congr rfl fun k _ => congrArg (· * _) ?_
  refine joinRow_congr (fun c => rfl) (fun c => ?_) k
  show aggScaledRows x ei (ix2 n c) * invSqrtDegCol ei (ix2 n (0 : Fin 1)) = aggMessages x ei (ix2 n c)
  rw [invSqrtDegCol_apply]
  exact agg_eq x ei hx n c

end Cert.GraphConv

end
-- ==== Proof.KernelBlocks.lean ====
/-
  The fused stage at one grid point.

  Point t is handed rows 5000·t … 5000·t + 4999 of x, of the aggregated rows and of the factor column, and the whole
  weight: entry y of a window's block is the array's entry at the block's offset plus y. From blocks that are rows n
  of the arrays, the body's stored entry (p, q) is the fused arrangement's entry (n, q).
-/
import proofs.«165505_j13056700579874_2_alg».proof.Proof.Gen.KernelIdeal.Frame
import proofs.«165505_j13056700579874_2_alg».proof.Proof.KernelBody
import proofs.«165505_j13056700579874_2_alg».proof.Proof.LayerFused
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- Which block of its array each window holds at point t: block t of the rows for the three row-tiled inputs and
    the output, the one block of the weight. Decided over the 20 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks as entries of the arrays the region finds -/

/-- A block of a row-tiled [100000, 128] array at point t, entry y, is the array's entry at the block's offset plus y. -/
theorem read_block0 (Arr : S100000x128.Idx → EReal) (t : Fin cfg0.N) (y : S5000x128.Idx) (j : S100000x128.Idx)
    (h0 : (j 0).val = win0_0.index t (0 : Fin 2) * 5000 + (y 0).val)
    (h1 : (j 1).val = win0_0.index t (1 : Fin 2) * 128 + (y 1).val) :
    (((cfg0.win 0).blk t).view.read (Elt Ideal) Arr : Vec Ideal S5000x128 .f32) y = Arr j := by
  rw [View.read_apply]
  refine congrArg Arr (funext fun a => Fin.ext ?_)
  match a with
  | ⟨0, _⟩ => show win0_0.index t (0 : Fin 2) * 5000 + 1 * (y 0).val = (j 0).val; omega
  | ⟨1, _⟩ => show win0_0.index t (1 : Fin 2) * 128 + 1 * (y 1).val = (j 1).val; omega

theorem block0_apply (c : Dev nD) (t : Fin cfg0.N) (y : S5000x128.Idx) (j : S100000x128.Idx)
    (h0 : (j 0).val = win0_0.index t (0 : Fin 2) * 5000 + (y 0).val)
    (h1 : (j 1).val = win0_0.index t (1 : Fin 2) * 128 + (y 1).val) :
    (iblk m c 0 t : Vec Ideal S5000x128 .f32) y = (V m c main_arg0 : S100000x128.Idx → EReal) j :=
  read_block0 (V m c main_arg0) t y j h0 h1

/-- The same for the aggregated rows' window. -/
theorem read_block1 (Arr : S100000x128.Idx → EReal) (t : Fin cfg0.N) (y : S5000x128.Idx) (j : S100000x128.Idx)
    (h0 : (j 0).val = win0_1.index t (0 : Fin 2) * 5000 + (y 0).val)
    (h1 : (j 1).val = win0_1.index t (1 : Fin 2) * 128 + (y 1).val) :
    (((cfg0.win 1).blk t).view.read (Elt Ideal) Arr : Vec Ideal S5000x128 .f32) y = Arr j := by
  rw [View.read_apply]
  refine congrArg Arr (funext fun a => Fin.ext ?_)
  match a with
  | ⟨0, _⟩ => show win0_1.index t (0 : Fin 2) * 5000 + 1 * (y 0).val = (j 0).val; omega
  | ⟨1, _⟩ => show win0_1.index t (1 : Fin 2) * 128 + 1 * (y 1).val = (j 1).val; omega

theorem block1_apply (c : Dev nD) (t : Fin cfg0.N) (y : S5000x128.Idx) (j : S100000x128.Idx)
    (h0 : (j 0).val = win0_1.index t (0 : Fin 2) * 5000 + (y 0).val)
    (h1 : (j 1).val = win0_1.index t (1 : Fin 2) * 128 + (y 1).val) :
    (iblk m c 1 t : Vec Ideal S5000x128 .f32) y = (V m c main_v27 : S100000x128.Idx → EReal) j :=
  read_block1 (V m c main_v27) t y j h0 h1

/-- The factor column's block. -/
theorem read_block2 (Arr : S100000x1.Idx → EReal) (t : Fin cfg0.N) (y : S5000x1.Idx) (j : S100000x1.Idx)
    (h0 : (j 0).val = win0_2.index t (0 : Fin 2) * 5000 + (y 0).val)
    (h1 : (j 1).val = win0_2.index t (1 : Fin 2) * 1 + (y 1).val) :
    (((cfg0.win 2).blk t).view.read (Elt Ideal) Arr : Vec Ideal S5000x1 .f32) y = Arr j := by
  rw [View.read_apply]
  refine congrArg Arr (funext fun a => Fin.ext ?_)
  match a with
  | ⟨0, _⟩ => show win0_2.index t (0 : Fin 2) * 5000 + 1 * (y 0).val = (j 0).val; omega
  | ⟨1, _⟩ => show win0_2.index t (1 : Fin 2) * 1 + 1 * (y 1).val = (j 1).val; omega

theorem block2_apply (c : Dev nD) (t : Fin cfg0.N) (y : S5000x1.Idx) (j : S100000x1.Idx)
    (h0 : (j 0).val = win0_2.index t (0 : Fin 2) * 5000 + (y 0).val)
    (h1 : (j 1).val = win0_2.index t (1 : Fin 2) * 1 + (y 1).val) :
    (iblk m c 2 t : Vec Ideal S5000x1 .f32) y = (V m c main_v28 : S100000x1.Idx → EReal) j :=
  read_block2 (V m c main_v28) t y j h0 h1

/-- The weight's one block. -/
theorem read_block3 (Arr : S256x128.Idx → EReal) (t : Fin cfg0.N) (y : S256x128.Idx) (j : S256x128.Idx)
    (h0 : (j 0).val = win0_3.index t (0 : Fin 2) * 256 + (y 0).val)
    (h1 : (j 1).val = win0_3.index t (1 : Fin 2) * 128 + (y 1).val) :
    (((cfg0.win 3).blk t).view.read (Elt Ideal) Arr : Vec Ideal S256x128 .f32) y = Arr j := by
  rw [View.read_apply]
  refine congrArg Arr (funext fun a => Fin.ext ?_)
  match a with
  | ⟨0, _⟩ => show win0_3.index t (0 : Fin 2) * 256 + 1 * (y 0).val = (j 0).val; omega
  | ⟨1, _⟩ => show win0_3.index t (1 : Fin 2) * 128 + 1 * (y 1).val = (j 1).val; omega

theorem block3_apply (c : Dev nD) (t : Fin cfg0.N) (y : S256x128.Idx) (j : S256x128.Idx)
    (h0 : (j 0).val = win0_3.index t (0 : Fin 2) * 256 + (y 0).val)
    (h1 : (j 1).val = win0_3.index t (1 : Fin 2) * 128 + (y 1).val) :
    (iblk m c 3 t : Vec Ideal S256x128 .f32) y = (V m c main_arg2 : S256x128.Idx → EReal) j :=
  read_block3 (V m c main_arg2) t y j h0 h1

/-! ## One point -/

/-- From blocks that are rows n of the arrays (and the whole weight), the body's stored entry (p, q) is the fused
    arrangement's entry (n, q). -/
theorem point_eq (X A : S100000x128.Idx → EReal) (D : S100000x1.Idx → EReal) (W : S256x128.Idx → EReal)
    (xb agg : Vec Ideal S5000x128 .f32) (fac : Vec Ideal S5000x1 .f32) (wb : Vec Ideal S256x128 .f32)
    (p : Fin 5000) (q : Fin 128) (n : Fin 100000)
    (hx : ∀ c : Fin 128, xb (ix2 p c) = X (ix2 n c)) (ha : ∀ c : Fin 128, agg (ix2 p c) = A (ix2 n c))
    (hf : fac (ix2 p (0 : Fin 1)) = D (ix2 n (0 : Fin 1))) (hw : ∀ k : Fin 256, wb (ix2 k q) = W (ix2 k q)) :
    k0_pay1 (F := Ideal) agg fac xb wb (ix2 p q) = Cert.GraphConv.fusedAt X A D W n q := by
  rw [Cert.KernelIdeal.Body.pay_apply]
  unfold Cert.GraphConv.fusedAt
  refine Finset.sum_congr rfl fun k _ => ?_
  rw [hw k]
  refine congrArg (· * _) ?_
  refine Cert.GraphConv.joinRow_congr (fun c => hx c) (fun c => ?_) k
  show agg (ix2 p c) * fac (ix2 p (0 : Fin 1)) = A (ix2 n c) * D (ix2 n (0 : Fin 1))
  rw [ha c, hf]

end Cert.KernelIdeal.Hand

end
-- ==== Proof.KernelValue.lean ====
/-
  The fused stage's result array, from its blocks.

  The grid has 20 points; point t is handed rows 5000·t … 5000·t + 4999 of x, of the aggregated rows and of the factor
  column, and the whole weight, and writes back rows 5000·t … 5000·t + 4999 of the result. Row p of the block it
  stores is  Σ_{k < 256} [x | A·s](5000·t + p, k) · W(k, ·)  — the same function of the four arrays at every point — and
  the 20 blocks tile the 100000 rows, so the array ends holding that function everywhere.
-/
import proofs.«165505_j13056700579874_2_alg».proof.Proof.Gen.KernelIdeal.Frame
import proofs.«165505_j13056700579874_2_alg».proof.Proof.Gen.KernelIdeal.Value
import proofs.«165505_j13056700579874_2_alg».proof.Proof.KernelBlocks
import proofs.«165505_j13056700579874_2_alg».proof.Proof.LayerFused
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

/-! ## What point t writes back -/

/-- Point t writes block t of the fused arrangement of the four arrays the region finds. -/
theorem flushed_eq (c : Dev nD) (t : Fin cfg0.N) :
    (dats m 0 c).flushed 4 t = ((cfg0.win 4).blk t).view.read (Elt Ideal) (Cert.GraphConv.fusedOut (V m c main_arg0) (V m c main_v27) (V m c main_v28) (V m c main_arg2)) := by
  rw [flushed4]
  unfold out0_4
  rw [View.canon_unit_zero hz]
  simp only [View.ld_unit_zero (S := S5000x128) hz, View.ld_unit_zero (S := S5000x1) hz, View.ld_unit_zero (S := S256x128) hz]
  obtain ⟨e0, e1, e2, e3, e4, e5, e6, e7, e8, e9⟩ := idx_facts t
  have ht : t.val < 20 := lt_of_lt_of_eq t.isLt (show cfg0.N = 20 from N_0)
  funext y
  rw [View.read_apply]
  have hy0 : (y 0).val < 5000 := (y 0).isLt
  have hy1 : (y 1).val < 128 := (y 1).isLt
  have hy : (y : S5000x128.Idx) = ix2 (⟨(y 0).val, hy0⟩ : Fin 5000) (⟨(y 1).val, hy1⟩ : Fin 128) :=
    funext fun a => match a with
      | ⟨0, _⟩ => rfl
      | ⟨1, _⟩ => rfl
  have j0 : ((((cfg0.win 4).blk t).view.emb y) 0).val = win0_4.index t (0 : Fin 2) * 5000 + 1 * (y 0).val := rfl
  have j1 : ((((cfg0.win 4).blk t).view.emb y) 1).val = win0_4.index t (1 : Fin 2) * 128 + 1 * (y 1).val := rfl
  have hn : 5000 * t.val + (y 0).val < 100000 := by omega
  show k0_pay1 (F := Ideal) (iblk m c 1 t) (iblk m c 2 t) (iblk m c 0 t) (iblk m c 3 t) y = _
  refine (congrArg (k0_pay1 (F := Ideal) (iblk m c 1 t) (iblk m c 2 t) (iblk m c 0 t) (iblk m c 3 t)) hy).trans ?_
  refine (point_eq (V m c main_arg0) (V m c main_v27) (V m c main_v28) (V m c main_arg2)
    (iblk m c 0 t) (iblk m c 1 t) (iblk m c 2 t) (iblk m c 3 t) ⟨(y 0).val, hy0⟩ ⟨(y 1).val, hy1⟩
    ⟨5000 * t.val + (y 0).val, hn⟩ (fun cc => ?_) (fun cc => ?_) ?_ (fun k => ?_)).trans ?_
  · exact block0_apply m c t _ _ (by show 5000 * t.val + (y 0).val = _ * 5000 + (y 0).val; omega)
      (by show cc.val = _ * 128 + cc.val; omega)
  · exact block1_apply m c t _ _ (by show 5000 * t.val + (y 0).val = _ * 5000 + (y 0).val; omega)
      (by show cc.val = _ * 128 + cc.val; omega)
  · exact block2_apply m c t _ _ (by show 5000 * t.val + (y 0).val = _ * 5000 + (y 0).val; omega)
      (by show (0 : ℕ) = _ * 1 + 0; omega)
  · exact block3_apply m c t _ _ (by show k.val = _ * 256 + k.val; omega)
      (by show (y 1).val = _ * 128 + (y 1).val; omega)
  · unfold Cert.GraphConv.fusedOut
    congr 1
    · apply Fin.ext
      show 5000 * t.val + (y 0).val = ((((cfg0.win 4).blk t).view.emb y) 0).val
      rw [j0]; omega
    · apply Fin.ext
      show (y 1).val = ((((cfg0.win 4).blk t).view.emb y) 1).val
      rw [j1]; omega

/-! ## The blocks tile the array -/

/-- An index of the result array is in point t's block iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v29).slice (win0_4.rect t)).set ↔ _
  rw [View.set_slice_whole, Rect.mem_set_unit]
  exact Iff.rfl

/-- Row r of the result is in the block of point r / 5000. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  have hq : (i 0).val / 5000 < cfg0.N := by rw [hN]; omega
  obtain ⟨e0, e1, e2, e3, e4, e5, e6, e7, e8, e9⟩ := idx_facts ⟨(i 0).val / 5000, hq⟩
  have e8' : win0_4.index ⟨(i 0).val / 5000, hq⟩ (0 : Fin 2) = (i 0).val / 5000 := e8
  refine ⟨⟨(i 0).val / 5000, hq⟩, flush0_4 _, ?_⟩
  rw [mem_blk]
  intro a
  match a with
  | ⟨0, _⟩ =>
    show win0_4.index ⟨(i 0).val / 5000, hq⟩ (0 : Fin 2) * 5000 ≤ (i 0).val
      ∧ (i 0).val < win0_4.index ⟨(i 0).val / 5000, hq⟩ (0 : Fin 2) * 5000 + 5000
    rw [e8']; omega
  | ⟨1, _⟩ =>
    show win0_4.index ⟨(i 0).val / 5000, hq⟩ (1 : Fin 2) * 128 ≤ (i 1).val
      ∧ (i 1).val < win0_4.index ⟨(i 0).val / 5000, hq⟩ (1 : Fin 2) * 128 + 128
    rw [e9]; omega

/-! ## The array, and the run -/

/-- After the run the result array is the fused arrangement of the four arrays the region finds. -/
theorem final (c : Dev nD) : (dats m 0 c).arrAt 4 cfg0.N = Cert.GraphConv.fusedOut (V m c main_arg0) (V m c main_v27) (V m c main_v28) (V m c main_arg2) :=
  (dats m 0 c).arrAt_eq_of_cover 4 _ (fun t _ => flushed_eq m c t) cover

/-- The kernel's run, read: the result array at the fused arrangement, the arguments unchanged. -/
theorem run : θ_run defs (onTc (τ := τ) (main (F := Ideal))) ⟨m, fun _ => 0, ρ⟩ fun r => ∀ c : Dev nD,
      r.2.mem ((c : Thread nD τ).loc main_v29) = Cert.GraphConv.fusedOut (V m c main_arg0) (V m c main_v27) (V m c main_v28) (V m c main_arg2)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hand

end
-- ==== Proof.KernelHost.lean ====
/-
  What the fused stage finds in its two host-written operands.

  Before the fused stage runs, the program has computed on the host, from the edge list alone, the degree of every node
  and the factor s = where(g > 0, rsqrt(where(g > 0, g, 1)), 0); it has scaled every row of x by its factor, gathered the
  scaled row of every edge's source and summed those rows into the edge's target row. The fused stage's second operand
  is that sum, A(n, ·) = Σ_{e → n} (x·s)(src e, ·), and its third the factors as a column [100000, 1]. No host operation
  writes x, the edge list or W.
  Each where(c, a, v) is three operations — the scalar v converted, repeated over the nodes, and the selection — stated
  at the values' types; at buffers whose types are those very types they are the plain operations.
-/
import proofs.«165505_j13056700579874_2_alg».proof.Proof.Gen.KernelIdeal.Frame
import proofs.«165505_j13056700579874_2_alg».proof.Proof.Stages
import Idealize.ShloMosaic.Lib.StableHlo.Run

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ)

/-- where(g > 0, g, 1), as plain operations. -/
abbrev where0 : List (HloOp τ sig (Elt Ideal)) :=
  [ StableHlo.unary main_cst_3 main_call0_v0 (id : (⟨S_, .f32⟩ : BufTy).Contents (Elt Ideal) → (⟨S_, .f32⟩ : BufTy).Contents (Elt Ideal)),
    StableHlo.unary main_call0_v0 main_call0_v1 (broadcastInDim S100000 ![] bcast_S_S100000 : (⟨S_, .f32⟩ : BufTy).Contents (Elt Ideal) → (⟨S100000, .f32⟩ : BufTy).Contents (Elt Ideal)),
    StableHlo.ternary main_v11 main_v7 main_call0_v1 main_v12 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ]

/-- where(g > 0, rsqrt(…), 0), as plain operations. -/
abbrev where1 : List (HloOp τ sig (Elt Ideal)) :=
  [ StableHlo.unary main_cst_4 main_call1_v0 (id : (⟨S_, .f32⟩ : BufTy).Contents (Elt Ideal) → (⟨S_, .f32⟩ : BufTy).Contents (Elt Ideal)),
    StableHlo.unary main_call1_v0 main_call1_v1 (broadcastInDim S100000 ![] bcast_S_S100000 : (⟨S_, .f32⟩ : BufTy).Contents (Elt Ideal) → (⟨S100000, .f32⟩ : BufTy).Contents (Elt Ideal)),
    StableHlo.ternary main_v9 main_v13 main_call1_v1 main_v14 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ]

theorem where0_plain : (hostOps0_1 : List (HloOp τ sig (Elt Ideal))) = where0 := rfl
theorem where1_plain : (hostOps0_3 : List (HloOp τ sig (Elt Ideal))) = where1 := rfl

set_option maxHeartbeats 4000000 in
/-- The aggregated rows the region finds: the segment sum of the scaled source rows. -/
theorem found_agg (c : Dev nD) :
    (V m c main_v27 : S100000x128.Idx → EReal)
      = Cert.GraphConv.aggScaledRows (m ((c : Thread nD τ).loc main_arg0)) (m ((c : Thread nD τ).loc main_arg1)) := by
  dsimp only [V]
  rw [where0_plain, where1_plain]
  simp only [hostOps0, where0, hostOps0_2, where1, hostOps0_4, List.flatten_cons, List.flatten_nil,
    List.append_nil, List.cons_append, List.nil_append]
  after_results_simp
  unfold Cert.GraphConv.aggScaledRows Cert.GraphConv.invSqrtDeg Cert.GraphConv.degree Cert.GraphConv.zeroNodes
    Cert.GraphConv.zeroNodeFeat Cert.GraphConv.asCol Cert.GraphConv.wrap Cert.GraphConv.srcOf Cert.GraphConv.tgtOf
  rfl

set_option maxHeartbeats 4000000 in
/-- The column of factors the region finds. -/
theorem found_factor (c : Dev nD) :
    (V m c main_v28 : S100000x1.Idx → EReal) = Cert.GraphConv.invSqrtDegCol (m ((c : Thread nD τ).loc main_arg1)) := by
  dsimp only [V]
  rw [where0_plain, where1_plain]
  simp only [hostOps0, where0, hostOps0_2, where1, hostOps0_4, List.flatten_cons, List.flatten_nil,
    List.append_nil, List.cons_append, List.nil_append]
  after_results_simp
  unfold Cert.GraphConv.invSqrtDegCol Cert.GraphConv.invSqrtDeg Cert.GraphConv.degree Cert.GraphConv.zeroNodes
    Cert.GraphConv.asCol Cert.GraphConv.tgtOf
  rfl

end Cert.KernelIdeal.Host

end
-- ==== Proof.LibAfterAppend.lean ====
/-
  The buffer contents after a list of host operations is a fold over the list, so after a concatenation it is the
  second list's fold from the first list's result. With it a long straight-line program is read stretch by stretch.
-/
import Idealize.ShloMosaic.Lib.StableHlo.Run

noncomputable section

namespace Cert.AfterAppend

open Idealize.ShloMosaic Idealize.ShloMosaic.StableHlo

/-- The contents after `l₁ ++ l₂` from `V` are the contents after `l₂` from the contents after `l₁` from `V`. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => rw [List.cons_append, after_cons, after_cons, ih]

end Cert.AfterAppend

end
-- ==== Proof.RefRun.lean ====
/-
  The reference program's run. Its @main is 62 host operations in a row (the two where(…) calls are three operations
  each: the scalar's conversion, its repetition over the nodes, the selection — at buffers of the values' own types they
  are plain operations), so every execution performs them in
  order and stops, and the result buffer ends holding their composition applied to the three arguments. That
  composition is the layer [x | B] · W of the stages: the degree of every node from the edge targets, the factor
  s = where(g > 0, rsqrt(where(g > 0, g, 1)), 0), the messages x(src e, ·) · (s(src e) · s(tgt e)) summed into their
  target rows, the join with x, and the contraction with W. The arguments are left as they were.
-/
import proofs.«165505_j13056700579874_2_alg».proof.Proof.Gen.ReferenceIdeal
import proofs.«165505_j13056700579874_2_alg».proof.Proof.Stages
import proofs.«165505_j13056700579874_2_alg».proof.Proof.LibAfterAppend
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order; a called function's three operations stand in its call's place. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x00000000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v7 main_v10 main_v11 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.unary main_cst_3 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v11 main_v7 main_call0_v1 main_v12 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.unary main_v12 main_v13 (Host.rsqrt : (⟨S100000, .f32⟩ : BufTy).Contents (Elt F) → (⟨S100000, .f32⟩ : BufTy).Contents (Elt F)),
    StableHlo.nullary main_cst_4 (constant S_ .f32 0x00000000#32),
    StableHlo.unary main_cst_4 main_call1_v0 (id : (⟨S_, .f32⟩ : BufTy).Contents (Elt F) → (⟨S_, .f32⟩ : BufTy).Contents (Elt F)),
    StableHlo.unary main_call1_v0 main_call1_v1 (broadcastInDim S100000 ![] bcast_S_S100000 : (⟨S_, .f32⟩ : BufTy).Contents (Elt F) → (⟨S100000, .f32⟩ : BufTy).Contents (Elt F)),
    StableHlo.ternary main_v9 main_v13 main_call1_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v15 (broadcastInDim S1600000 ![] bcast_S_S1600000 : (⟨S_, .i32⟩ : BufTy).Contents (Elt F) → (⟨S1600000, .i32⟩ : BufTy).Contents (Elt F)),
    StableHlo.binary main_v1 main_v15 main_v16 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v17 (broadcastInDim S1600000 ![] bcast_S_S1600000 : (⟨S_, .i32⟩ : BufTy).Contents (Elt F) → (⟨S1600000, .i32⟩ : BufTy).Contents (Elt F)),
    StableHlo.binary main_v1 main_v17 main_v18 (addi : (⟨S1600000, .i32⟩ : BufTy).Contents (Elt F) → (⟨S1600000, .i32⟩ : BufTy).Contents (Elt F) → (⟨S1600000, .i32⟩ : BufTy).Contents (Elt F)),
    StableHlo.ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v19 main_v20 (broadcastInDim S1600000x1 ![0] bcast_S1600000_S1600000x1_0 : (⟨S1600000, .i32⟩ : BufTy).Contents (Elt F) → (⟨S1600000x1, .i32⟩ : BufTy).Contents (Elt F)),
    StableHlo.binary main_v14 main_v20 main_v21 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_6 (constantI S_ 32 0#32),
    StableHlo.unary main_c_6 main_v22 (broadcastInDim S1600000 ![] bcast_S_S1600000 : (⟨S_, .i32⟩ : BufTy).Contents (Elt F) → (⟨S1600000, .i32⟩ : BufTy).Contents (Elt F)),
    StableHlo.binary main_v3 main_v22 main_v23 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v24 (broadcastInDim S1600000 ![] bcast_S_S1600000 : (⟨S_, .i32⟩ : BufTy).Contents (Elt F) → (⟨S1600000, .i32⟩ : BufTy).Contents (Elt F)),
    StableHlo.binary main_v3 main_v24 main_v25 (addi : (⟨S1600000, .i32⟩ : BufTy).Contents (Elt F) → (⟨S1600000, .i32⟩ : BufTy).Contents (Elt F) → (⟨S1600000, .i32⟩ : BufTy).Contents (Elt F)),
    StableHlo.ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v26 main_v27 (broadcastInDim S1600000x1 ![0] bcast_S1600000_S1600000x1_0 : (⟨S1600000, .i32⟩ : BufTy).Contents (Elt F) → (⟨S1600000x1, .i32⟩ : BufTy).Contents (Elt F)),
    StableHlo.binary main_v14 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v21 main_v28 main_v29 (mulf : (⟨S1600000, .f32⟩ : BufTy).Contents (Elt F) → (⟨S1600000, .f32⟩ : BufTy).Contents (Elt F) → (⟨S1600000, .f32⟩ : BufTy).Contents (Elt F)),
    StableHlo.nullary main_c_8 (constantI S_ 32 0#32),
    StableHlo.unary main_c_8 main_v30 (broadcastInDim S1600000 ![] bcast_S_S1600000 : (⟨S_, .i32⟩ : BufTy).Contents (Elt F) → (⟨S1600000, .i32⟩ : BufTy).Contents (Elt F)),
    StableHlo.binary main_v1 main_v30 main_v31 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v32 (broadcastInDim S1600000 ![] bcast_S_S1600000 : (⟨S_, .i32⟩ : BufTy).Contents (Elt F) → (⟨S1600000, .i32⟩ : BufTy).Contents (Elt F)),
    StableHlo.binary main_v1 main_v32 main_v33 (addi : (⟨S1600000, .i32⟩ : BufTy).Contents (Elt F) → (⟨S1600000, .i32⟩ : BufTy).Contents (Elt F) → (⟨S1600000, .i32⟩ : BufTy).Contents (Elt F)),
    StableHlo.ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v34 main_v35 (broadcastInDim S1600000x1 ![0] bcast_S1600000_S1600000x1_0 : (⟨S1600000, .i32⟩ : BufTy).Contents (Elt F) → (⟨S1600000x1, .i32⟩ : BufTy).Contents (Elt F)),
    StableHlo.binary main_arg0 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v29 main_v37 (broadcastInDim S1600000x1 ![0] bcast_S1600000_S1600000x1_0 : (⟨S1600000, .f32⟩ : BufTy).Contents (Elt F) → (⟨S1600000x1, .f32⟩ : BufTy).Contents (Elt F)),
    StableHlo.unary main_v37 main_v38 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v36 main_v38 main_v39 (mulf : (⟨S1600000x128, .f32⟩ : BufTy).Contents (Elt F) → (⟨S1600000x128, .f32⟩ : BufTy).Contents (Elt F) → (⟨S1600000x128, .f32⟩ : BufTy).Contents (Elt F)),
    StableHlo.nullary main_cst_10 (constant S_ .f32 0x00000000#32),
    StableHlo.unary main_cst_10 main_v40 (broadcastInDim S100000x128 ![] bcast_S_S100000x128 : (⟨S_, .f32⟩ : BufTy).Contents (Elt F) → (⟨S100000x128, .f32⟩ : BufTy).Contents (Elt F)),
    StableHlo.unary main_v3 main_v41 (broadcastInDim S1600000x1 ![0] bcast_S1600000_S1600000x1_0 : (⟨S1600000, .i32⟩ : BufTy).Contents (Elt F) → (⟨S1600000x1, .i32⟩ : BufTy).Contents (Elt F)),
    StableHlo.ternary main_v40 main_v41 main_v39 main_v42 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v42 main_v43 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v43 main_arg2 main_v44 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]

set_option maxRecDepth 8192 in
set_option maxHeartbeats 4000000 in
/-- @main is the sequence of those operations. -/
theorem main_eq (c : Dev nD) : main (F := F) c = seq ops := rfl

/-- No buffer and no semaphore of this program is scoped to a region. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.binary_bufs_sub ..⟩

/-! ## The result, read stretch by stretch

Inside a list of (shape, array) pairs — the operands of a join — no rewriting reaches the arrays, so the join's two
operands are read on their own, from the state the first 60 operations leave, and the last two operations are read
over an arbitrary incoming state. -/

/-- Everything up to the summed messages. -/
abbrev opsA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x00000000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v7 main_v10 main_v11 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.unary main_cst_3 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v11 main_v7 main_call0_v1 main_v12 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.unary main_v12 main_v13 (Host.rsqrt : (⟨S100000, .f32⟩ : BufTy).Contents (Elt F) → (⟨S100000, .f32⟩ : BufTy).Contents (Elt F)),
    StableHlo.nullary main_cst_4 (constant S_ .f32 0x00000000#32),
    StableHlo.unary main_cst_4 main_call1_v0 (id : (⟨S_, .f32⟩ : BufTy).Contents (Elt F) → (⟨S_, .f32⟩ : BufTy).Contents (Elt F)),
    StableHlo.unary main_call1_v0 main_call1_v1 (broadcastInDim S100000 ![] bcast_S_S100000 : (⟨S_, .f32⟩ : BufTy).Contents (Elt F) → (⟨S100000, .f32⟩ : BufTy).Contents (Elt F)),
    StableHlo.ternary main_v9 main_v13 main_call1_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v15 (broadcastInDim S1600000 ![] bcast_S_S1600000 : (⟨S_, .i32⟩ : BufTy).Contents (Elt F) → (⟨S1600000, .i32⟩ : BufTy).Contents (Elt F)),
    StableHlo.binary main_v1 main_v15 main_v16 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v17 (broadcastInDim S1600000 ![] bcast_S_S1600000 : (⟨S_, .i32⟩ : BufTy).Contents (Elt F) → (⟨S1600000, .i32⟩ : BufTy).Contents (Elt F)),
    StableHlo.binary main_v1 main_v17 main_v18 (addi : (⟨S1600000, .i32⟩ : BufTy).Contents (Elt F) → (⟨S1600000, .i32⟩ : BufTy).Contents (Elt F) → (⟨S1600000, .i32⟩ : BufTy).Contents (Elt F)),
    StableHlo.ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v19 main_v20 (broadcastInDim S1600000x1 ![0] bcast_S1600000_S1600000x1_0 : (⟨S1600000, .i32⟩ : BufTy).Contents (Elt F) → (⟨S1600000x1, .i32⟩ : BufTy).Contents (Elt F)),
    StableHlo.binary main_v14 main_v20 main_v21 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_6 (constantI S_ 32 0#32),
    StableHlo.unary main_c_6 main_v22 (broadcastInDim S1600000 ![] bcast_S_S1600000 : (⟨S_, .i32⟩ : BufTy).Contents (Elt F) → (⟨S1600000, .i32⟩ : BufTy).Contents (Elt F)),
    StableHlo.binary main_v3 main_v22 main_v23 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v24 (broadcastInDim S1600000 ![] bcast_S_S1600000 : (⟨S_, .i32⟩ : BufTy).Contents (Elt F) → (⟨S1600000, .i32⟩ : BufTy).Contents (Elt F)),
    StableHlo.binary main_v3 main_v24 main_v25 (addi : (⟨S1600000, .i32⟩ : BufTy).Contents (Elt F) → (⟨S1600000, .i32⟩ : BufTy).Contents (Elt F) → (⟨S1600000, .i32⟩ : BufTy).Contents (Elt F)),
    StableHlo.ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v26 main_v27 (broadcastInDim S1600000x1 ![0] bcast_S1600000_S1600000x1_0 : (⟨S1600000, .i32⟩ : BufTy).Contents (Elt F) → (⟨S1600000x1, .i32⟩ : BufTy).Contents (Elt F)),
    StableHlo.binary main_v14 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v21 main_v28 main_v29 (mulf : (⟨S1600000, .f32⟩ : BufTy).Contents (Elt F) → (⟨S1600000, .f32⟩ : BufTy).Contents (Elt F) → (⟨S1600000, .f32⟩ : BufTy).Contents (Elt F)),
    StableHlo.nullary main_c_8 (constantI S_ 32 0#32),
    StableHlo.unary main_c_8 main_v30 (broadcastInDim S1600000 ![] bcast_S_S1600000 : (⟨S_, .i32⟩ : BufTy).Contents (Elt F) → (⟨S1600000, .i32⟩ : BufTy).Contents (Elt F)),
    StableHlo.binary main_v1 main_v30 main_v31 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v32 (broadcastInDim S1600000 ![] bcast_S_S1600000 : (⟨S_, .i32⟩ : BufTy).Contents (Elt F) → (⟨S1600000, .i32⟩ : BufTy).Contents (Elt F)),
    StableHlo.binary main_v1 main_v32 main_v33 (addi : (⟨S1600000, .i32⟩ : BufTy).Contents (Elt F) → (⟨S1600000, .i32⟩ : BufTy).Contents (Elt F) → (⟨S1600000, .i32⟩ : BufTy).Contents (Elt F)),
    StableHlo.ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v34 main_v35 (broadcastInDim S1600000x1 ![0] bcast_S1600000_S1600000x1_0 : (⟨S1600000, .i32⟩ : BufTy).Contents (Elt F) → (⟨S1600000x1, .i32⟩ : BufTy).Contents (Elt F)),
    StableHlo.binary main_arg0 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v29 main_v37 (broadcastInDim S1600000x1 ![0] bcast_S1600000_S1600000x1_0 : (⟨S1600000, .f32⟩ : BufTy).Contents (Elt F) → (⟨S1600000x1, .f32⟩ : BufTy).Contents (Elt F)),
    StableHlo.unary main_v37 main_v38 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v36 main_v38 main_v39 (mulf : (⟨S1600000x128, .f32⟩ : BufTy).Contents (Elt F) → (⟨S1600000x128, .f32⟩ : BufTy).Contents (Elt F) → (⟨S1600000x128, .f32⟩ : BufTy).Contents (Elt F)),
    StableHlo.nullary main_cst_10 (constant S_ .f32 0x00000000#32),
    StableHlo.unary main_cst_10 main_v40 (broadcastInDim S100000x128 ![] bcast_S_S100000x128 : (⟨S_, .f32⟩ : BufTy).Contents (Elt F) → (⟨S100000x128, .f32⟩ : BufTy).Contents (Elt F)),
    StableHlo.unary main_v3 main_v41 (broadcastInDim S1600000x1 ![0] bcast_S1600000_S1600000x1_0 : (⟨S1600000, .i32⟩ : BufTy).Contents (Elt F) → (⟨S1600000x1, .i32⟩ : BufTy).Contents (Elt F)),
    StableHlo.ternary main_v40 main_v41 main_v39 main_v42 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The join with x and the contraction with W. -/
abbrev opsB : List (HloOp τ sig (Elt F)) :=
  [ StableHlo.binary main_arg0 main_v42 main_v43 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v43 main_arg2 main_v44 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]

set_option maxRecDepth 8192 in
theorem ops_split : (ops : List (HloOp τ sig (Elt F))) = opsA ++ opsB := rfl

/-- The last two operations from any state W: W's x joined to W's summed messages, contracted with W's weight. -/
theorem last_two (W : Valuation τ sig (Elt Ideal)) :
    (after (opsB (F := Ideal)) W (Proc.tc.devRef main_v44) : S100000x128.Idx → EReal)
      = Host.dotGeneral (F := Ideal) (φ₁ := .f32) (φ₂ := .f32) dot_S100000x256_S256x128_S100000x128_1_0_0_1_n_n none
        (concatenate S100000x256 1 [⟨S100000x128, (W (Proc.tc.devRef main_arg0) : FVec Ideal S100000x128 .f32)⟩,
          ⟨S100000x128, (W (Proc.tc.devRef main_v42) : FVec Ideal S100000x128 .f32)⟩] concatenates_S100000x128_S100000x128_S100000x256_d1)
        (W (Proc.tc.devRef main_arg2) : FVec Ideal S256x128 .f32) := by
  after_results

set_option maxHeartbeats 24800000 in
/-- The first 60 operations leave x as it was, -/
theorem kept_x (m : (ℓ : Loc nD τ sig) → Buf (Elt Ideal) ℓ) (c : Dev nD) :
    after (opsA (F := Ideal)) (launchContents m c) (Proc.tc.devRef main_arg0) = m ((c.tc : Thread nD τ).loc main_arg0) := by
  after_results_simp <;> rfl

set_option maxHeartbeats 24800000 in
/-- and W, -/
theorem kept_w (m : (ℓ : Loc nD τ sig) → Buf (Elt Ideal) ℓ) (c : Dev nD) :
    after (opsA (F := Ideal)) (launchContents m c) (Proc.tc.devRef main_arg2) = m ((c.tc : Thread nD τ).loc main_arg2) := by
  after_results_simp <;> rfl

set_option maxHeartbeats 24800000 in
/-- and in the 43rd value the sum of the scaled messages. -/
theorem messages_eq (m : (ℓ : Loc nD τ sig) → Buf (Elt Ideal) ℓ) (c : Dev nD) :
    (after (opsA (F := Ideal)) (launchContents m c) (Proc.tc.devRef main_v42) : S100000x128.Idx → EReal)
      = Cert.GraphConv.aggMessages (m ((c.tc : Thread nD τ).loc main_arg0)) (m ((c.tc : Thread nD τ).loc main_arg1)) := by
  after_results_simp
  unfold Cert.GraphConv.aggMessages Cert.GraphConv.invSqrtDeg Cert.GraphConv.degree Cert.GraphConv.zeroNodes
    Cert.GraphConv.zeroNodeFeat Cert.GraphConv.asCol Cert.GraphConv.wrap Cert.GraphConv.srcOf Cert.GraphConv.tgtOf
  rfl

/-- The join of two [100000, 128] arrays contracted with the weight, written with this program's own dimension
    records, is the layer's last two stages. -/
theorem join_dot_eq (a b : FVec Ideal S100000x128 .f32) (w : FVec Ideal S256x128 .f32) :
    Host.dotGeneral (F := Ideal) dot_S100000x256_S256x128_S100000x128_1_0_0_1_n_n none
        (concatenate S100000x256 1 [⟨S100000x128, a⟩, ⟨S100000x128, b⟩] concatenates_S100000x128_S100000x128_S100000x256_d1) w
      = Host.dotGeneral (F := Ideal) Cert.GraphConv.joinDot none
        (concatenate Cert.GraphConv.NodeJoin 1 [⟨Cert.GraphConv.NodeFeat, a⟩, ⟨Cert.GraphConv.NodeFeat, b⟩]
          Cert.GraphConv.join_cols) w := rfl

/-- What the 62 operations leave in the result buffer: the layer. -/
theorem result_eq (m : (ℓ : Loc nD τ sig) → Buf (Elt Ideal) ℓ) (c : Dev nD) :
    (after (ops (F := Ideal)) (launchContents m c) (Proc.tc.devRef main_v44) : S100000x128.Idx → EReal)
      = Cert.GraphConv.layer (m ((c.tc : Thread nD τ).loc main_arg0)) (m ((c.tc : Thread nD τ).loc main_arg1)) (m ((c.tc : Thread nD τ).loc main_arg2)) := by
  rw [ops_split, Cert.AfterAppend.after_append, last_two, kept_x, kept_w, messages_eq]
  exact join_dot_eq _ _ _

set_option maxRecDepth 8192 in
set_option maxHeartbeats 24800000 in
/-- Every weakly fair execution of the reference terminates with the result at the layer of the arguments and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44) = Cert.GraphConv.layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v44).trans (result_eq m c),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefRun

end
-- ==== Proof.Finite.lean ====
/-
  The precondition, read at an entry.

  The precondition is the conjunction of two all-of tests, |x| < +∞ at every entry of x and |W| < +∞ at every entry of
  W. When it holds, every entry of x is an extended real whose absolute value max(v, −v) is below +∞: a real number.
-/
import proofs.«165505_j13056700579874_2_alg».proof.Pre_finite_inputs
import proofs.«165505_j13056700579874_2_alg».proof.Proof.Gen.Pre_finite_inputs
import proofs.«165505_j13056700579874_2_alg».proof.Proof.LibRealSums
import Idealize.ShloMosaic.Lib.ReduceAll
import Idealize.ShloMosaic.Lib.Affine
import Idealize.ShloMosaic.Lib.ValueIdx

noncomputable section

namespace Cert.Pre_finite_inputs.Hand

open Cert.Pre_finite_inputs Cert.Pre_finite_inputs.Gen Idealize.ShloMosaic Cert.Math

instance : Subsingleton S_.Idx := ⟨fun a b => funext fun d => d.elim0⟩

/-- Where the precondition is all ones, every entry of x is a real number. -/
theorem x_real (x : FVec Ideal S100000x128 .f32) (ei : IVec S2x1600000 32) (w : FVec Ideal S256x128 .f32)
    (h : fn (F := Ideal) x ei w = fun _ => 1#1) (i : S100000x128.Idx) : IsReal (x i) := by
  have h0 := congrFun h ValueIdx.ix0
  dsimp only [fn] at h0
  have h1 := (IntOp.andi_eq_one.mp h0).1
  have h2 := Host.reduce_andi_all _ _ _ _ _ h1 i
  have h3 : Ideal.cmp .olt (max (x i) (-(x i))) (Ideal.ofBits .f32 0x7F800000#32) = 1#1 := h2
  rw [ofBits_inf] at h3
  have h4 : max (x i) (-(x i)) < ⊤ := by
    by_contra hc
    simp [Ideal.cmp, hc] at h3
  exact isReal_of_abs_lt_top h4

end Cert.Pre_finite_inputs.Hand

end
-- ==== Proof.lean ====
/-
  A graph-convolution layer with symmetric normalisation, fused against its plain form.

  From the edge list both programs compute the degree g(n) of every node (the number of edges whose target is n) and
  the factor s(n) = where(g n > 0, rsqrt(where(g n > 0, g n, 1)), 0). The reference scales every message,
      B(n, ·) = Σ_{e → n} x(src e, ·) · (s(src e) · s(tgt e)),        result = [x | B] · W.
  The kernel scales the rows of x once, sums the scaled source rows into their targets on the host,
      A(n, ·) = Σ_{e → n} (x·s)(src e, ·),
  and hands x, A, s and W to a fused stage that, 5000 rows at a time, multiplies row n of A by s(n), joins it to row n
  of x and contracts the 256 joined columns with W. At the ideal values the changes of float format are the
  identity, so the fused stage leaves [x | A·s] · W.
  The two agree because A(n, k) · s(n) = B(n, k): on an edge landing on n the target's factor IS s(n), every factor is
  a real number whatever the degree (rsqrt of a positive extended real is real, 0 at +∞), and on a finite x every
  term of the sum is real — so the real factor s(n) may be taken into the sum. The extended reals do not distribute
  at the infinities, which is where the precondition (x finite) is used. Out-of-range indices need no assumption:
  a source index is wrapped and clamped the same way in both programs, and a target outside the node range lands
  nowhere in either.
-/
import proofs.«165505_j13056700579874_2_alg».proof.Defs
import proofs.«165505_j13056700579874_2_alg».proof.Proof.Gen.Kernel
import proofs.«165505_j13056700579874_2_alg».proof.Proof.Gen.Kernel.Skeleton
import proofs.«165505_j13056700579874_2_alg».proof.Proof.Gen.Kernel.Launch
import proofs.«165505_j13056700579874_2_alg».proof.Proof.Gen.Kernel.Points
import proofs.«165505_j13056700579874_2_alg».proof.Proof.Gen.Kernel.Frame
import proofs.«165505_j13056700579874_2_alg».proof.Proof.Gen.KernelIdeal
import proofs.«165505_j13056700579874_2_alg».proof.Proof.Gen.KernelIdeal.Skeleton
import proofs.«165505_j13056700579874_2_alg».proof.Proof.Gen.KernelIdeal.Launch
import proofs.«165505_j13056700579874_2_alg».proof.Proof.Gen.KernelIdeal.Points
import proofs.«165505_j13056700579874_2_alg».proof.Proof.Gen.KernelIdeal.Frame
import proofs.«165505_j13056700579874_2_alg».proof.Proof.Gen.ReferenceIdeal
import proofs.«165505_j13056700579874_2_alg».proof.Proof.Gen.Pre_finite_inputs
import proofs.«165505_j13056700579874_2_alg».proof.Proof.Gen.KernelIdeal.Value
import proofs.«165505_j13056700579874_2_alg».proof.Proof.KernelValue
import proofs.«165505_j13056700579874_2_alg».proof.Proof.KernelHost
import proofs.«165505_j13056700579874_2_alg».proof.Proof.RefRun
import proofs.«165505_j13056700579874_2_alg».proof.Proof.LayerFused
import proofs.«165505_j13056700579874_2_alg».proof.Proof.Finite
import Idealize.ShloMosaic.Adequacy
import Idealize.ShloMosaic.Init

noncomputable section

namespace Cert.Proof

open Idealize.ShloMosaic Idealize.ShloMosaic.TcCoe Idealize.SL.Sem

/-- What the kernel leaves, as a function of its arguments: on a finite x the fused arrangement of the four arrays the
    region finds is the layer of x, the edge list and W. -/
theorem kernel_result (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) = fun _ => 1#1) :
    Cert.GraphConv.fusedOut (Cert.KernelIdeal.Gen.V m c Cert.KernelIdeal.main_arg0)
        (Cert.KernelIdeal.Gen.V m c Cert.KernelIdeal.main_v27) (Cert.KernelIdeal.Gen.V m c Cert.KernelIdeal.main_v28)
        (Cert.KernelIdeal.Gen.V m c Cert.KernelIdeal.main_arg2)
      = Cert.GraphConv.layer (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) := by
  rw [Cert.KernelIdeal.Gen.V_main_arg0, Cert.KernelIdeal.Gen.V_main_arg2, Cert.KernelIdeal.Host.found_agg,
    Cert.KernelIdeal.Host.found_factor]
  exact Cert.GraphConv.fusedOut_eq_layer _ _ _ (Cert.Pre_finite_inputs.Hand.x_real _ _ _ hpre)

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- Both runs end at the layer of the shared arguments. -/
theorem algebraic : Cert.algebraic_KernelIdeal_ReferenceIdeal := by
  intro m ρ m' ρ' hpre hagree
  refine ⟨fun c => Cert.GraphConv.layer (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)), ?_, ?_⟩
  · exact (θ_run Cert.KernelIdeal.defs _ _).mono
      (fun r h c => ⟨(h c).1.trans (kernel_result m c (hpre c)), (h c).2⟩) (Cert.KernelIdeal.Hand.run m ρ)
  · refine (θ_run Cert.ReferenceIdeal.defs _ _).mono (fun _ h c => ⟨(h c).1.trans ?_, (h c).2⟩)
      (Cert.ReferenceIdeal.RefRun.run m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
